-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S16 : Shape := ⟨1, ![16]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel

variable [Facts]

def fn {F : FTy → Type} [FloatOps F] (main_arg0 : FVec F S1600000x128 .f32) (main_arg1 : IVec S16 32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  main_v3
-- ==== Kernel.lean ====
abbrev S1600000x128 : Shape := ⟨2, ![1600000, 128]⟩
abbrev S16 : Shape := ⟨1, ![16]⟩
abbrev S1 : Shape := ⟨1, ![1]⟩
abbrev S15 : Shape := ⟨1, ![15]⟩
abbrev S_ : Shape := ⟨0, ![]⟩
abbrev S1600000 : Shape := ⟨1, ![1600000]⟩
abbrev S16x1 : Shape := ⟨2, ![16, 1]⟩
abbrev S1600000x1 : Shape := ⟨2, ![1600000, 1]⟩
abbrev S1x1 : Shape := ⟨2, ![1, 1]⟩
abbrev S2x16x128 : Shape := ⟨3, ![2, 16, 128]⟩
abbrev S16000x1 : Shape := ⟨2, ![16000, 1]⟩
abbrev S16000x128 : Shape := ⟨2, ![16000, 128]⟩
abbrev S1x16x128 : Shape := ⟨3, ![1, 16, 128]⟩
abbrev S16x128 : Shape := ⟨2, ![16, 128]⟩
abbrev S1x16 : Shape := ⟨2, ![1, 16]⟩
abbrev S16000x16 : Shape := ⟨2, ![16000, 16]⟩

abbrev nBuf : Space → Nat
  | .hbm => 65
  | .vmem => 7
  | .smem => 0
  | _ => 0

abbrev bufTy : (tb : Table) → Fin (tcTables nBuf tb) → BufTy
  | .hbm, ⟨0, _⟩ => ⟨S1600000x128, .f32⟩
  | .hbm, ⟨1, _⟩ => ⟨S16, .i32⟩
  | .hbm, ⟨2, _⟩ => ⟨S16, .i32⟩
  | .hbm, ⟨3, _⟩ => ⟨S1, .i32⟩
  | .hbm, ⟨4, _⟩ => ⟨S15, .i32⟩
  | .hbm, ⟨5, _⟩ => ⟨S16, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S_, .i32⟩
  | .hbm, ⟨14, _⟩ => ⟨S1600000, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S_, .i32⟩
  | .hbm, ⟨24, _⟩ => ⟨S16, .i32⟩
  | .hbm, ⟨25, _⟩ => ⟨S1600000, .i32⟩
  | .hbm, ⟨26, _⟩ => ⟨S_, .i32⟩
  | .hbm, ⟨27, _⟩ => ⟨S_, .i32⟩
  | .hbm, ⟨28, _⟩ => ⟨S1600000, .i32⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S2x16x128, .f32⟩
  | .hbm, ⟨56, _⟩ => ⟨S_, .f32⟩
  | .hbm, ⟨57, _⟩ => ⟨S16x128, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16x1, .f32⟩
  | .hbm, ⟨63, _⟩ => ⟨S16x128, .f32⟩
  | .hbm, ⟨64, _⟩ => ⟨S16x128, .f32⟩
  | .local _ .vmem, ⟨0, _⟩ => ⟨S16000x1, .i32⟩
  | .local _ .vmem, ⟨1, _⟩ => ⟨S16000x1, .i32⟩
  | .local _ .vmem, ⟨2, _⟩ => ⟨S16000x128, .f32⟩
  | .local _ .vmem, ⟨3, _⟩ => ⟨S16000x128, .f32⟩
  | .local _ .vmem, ⟨4, _⟩ => ⟨S1x16x128, .f32⟩
  | .local _ .vmem, ⟨5, _⟩ => ⟨S1x16x128, .f32⟩
  | .local _ .vmem, ⟨6, _⟩ => ⟨S16x128, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst : Ref sig .tc := ⟨.hbm, 56, rfl⟩
abbrev main_v20 : Ref sig .tc := ⟨.hbm, 57, rfl⟩
abbrev main_v21 : Ref sig .tc := ⟨.hbm, 58, rfl⟩
abbrev main_cst_6 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v20 : BitVec 1 := Scalar.cmpi .eq arg1 c49_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S16_S1_15 : S16.Slices ![15] S1
  slices_S16_S15_0 : S16.Slices ![0] S15
  concatenates_S1_S15_S16_d0 : Shape.Concatenates [S1, S15] S16 0
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S1600000 : S_.BroadcastsInDim S1600000 (![] : Fin 0 → Fin S1600000.rank)
  bcast_S_S16 : S_.BroadcastsInDim S16 (![] : Fin 0 → Fin S16.rank)
  bcast_S16_S16x1_0 : S16.BroadcastsInDim S16x1 (![0] : Fin 1 → Fin S16x1.rank)
  reduceWindows_S1600000_S1600000_w1600000s1p1599999_0 : S1600000.ReduceWindows (![1600000] : Fin 1 → Nat) ![1] ![1599999] ![0] S1600000
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  shapeCasts_S1600000_S1600000x1 : S1600000.ShapeCasts S1600000x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  iota_S1x16_d1_w32 : S1x16.Iotas .tc 32 [1]
  broadcasts_S16000x1_S16000x16 : S16000x1.Broadcasts S16000x16
  broadcasts_S1x16_S16000x16 : S1x16.Broadcasts S16000x16
  natLt_1_32 : 1 < 32
  bitsLt_bf16_f32 : FTy.bits .bf16 < FTy.bits .f32
  inb_S16000x128_S16000x128_0_0 : ∀ a, (![0, 0] : Fin 2 → Nat) a + S16000x128.size a ≤ S16000x128.size a
  h_S16000x128 : 0 < S16000x128.numel
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16x128_d0 : S2x16x128.ReducesTo [0] S16x128
  bcast_S16x1_S16x128_0_1 : S16x1.BroadcastsInDim S16x128 (![0, 1] : Fin 2 → Fin S16x128.rank)
  scatter_S16_S1_S__n_0_0_0_wf : ScatterDims.WF S16 S1 S_ [] [0] [0] 0
  scatter_S1600000_S16x1_S16_n_0_0_1_wf : ScatterDims.WF S1600000 S16x1 S16 [] [0] [0] 1
  gather_S16_S1600000x1_S1600000_n_0_n_n_0_1_1_wf : GatherDims.WF S16 S1600000x1 S1600000 [] [0] [] [0] [] 1 ![1]
  dot_S16000x16_S16000x128_S16x128_0_0_1_1_n_n_wf : DotDims.WF S16000x16 S16000x128 S16x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x1.size a ≤ S1600000x1.size a
  hwx0_0 : ∀ i : grid0.Coords, EltTy.bits .i32 = 32 ∨ (Rect.block (s := S1600000x1) S16000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S1600000x128.size a
  hwx0_1 : ∀ i : grid0.Coords, EltTy.bits .f32 = 32 ∨ (Rect.block (s := S1600000x128) S16000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)

variable [Facts₀]

def scatter_S16_S1_S__n_0_0_0 : ScatterDims S16 S1 S_ where
  updateWindowDims := []
  insertedWindowDims := [0]
  scatterDimsToOperandDims := [0]
  indexVectorDim := 0
  wf := scatter_S16_S1_S__n_0_0_0_wf
def scatter_S1600000_S16x1_S16_n_0_0_1 : ScatterDims S1600000 S16x1 S16 where
  updateWindowDims := []
  insertedWindowDims := [0]
  scatterDimsToOperandDims := [0]
  indexVectorDim := 1
  wf := scatter_S1600000_S16x1_S16_n_0_0_1_wf
def gather_S16_S1600000x1_S1600000_n_0_n_n_0_1_1 : GatherDims S16 S1600000x1 S1600000 where
  offsetDims := []
  collapsedSliceDims := [0]
  operandBatchingDims := []
  startIndicesBatchingDims := []
  startIndexMap := [0]
  indexVectorDim := 1
  sliceSizes := ![1]
  wf := gather_S16_S1600000x1_S1600000_n_0_n_n_0_1_1_wf
def dot_S16000x16_S16000x128_S16x128_0_0_1_1_n_n : DotDims S16000x16 S16000x128 S16x128 where
  lhsContracting := [0]
  rhsContracting := [0]
  lhsNonContracting := [1]
  rhsNonContracting := [1]
  lhsBatch := []
  rhsBatch := []
  wf := dot_S16000x16_S16000x128_S16x128_0_0_1_1_n_n_wf

abbrev win0_0 : Pipeline.Window sig grid0 :=
  Pipeline.Window.ofSpec (Memref.whole main_v18) S16000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1600000x128 : Shape := ⟨2, ![1600000, 128]⟩
abbrev S16 : Shape := ⟨1, ![16]⟩
abbrev S1 : Shape := ⟨1, ![1]⟩
abbrev S15 : Shape := ⟨1, ![15]⟩
abbrev S_ : Shape := ⟨0, ![]⟩
abbrev S1600000 : Shape := ⟨1, ![1600000]⟩
abbrev S16x1 : Shape := ⟨2, ![16, 1]⟩
abbrev S1600000x1 : Shape := ⟨2, ![1600000, 1]⟩
abbrev S1x1 : Shape := ⟨2, ![1, 1]⟩
abbrev S16x128 : Shape := ⟨2, ![16, 128]⟩

abbrev nBuf : Space → Nat
  | .hbm => 65
  | .vmem => 0
  | .smem => 0
  | _ => 0

abbrev bufTy : (tb : Table) → Fin (tcTables nBuf tb) → BufTy
  | .hbm, ⟨0, _⟩ => ⟨S1600000x128, .f32⟩
  | .hbm, ⟨1, _⟩ => ⟨S16, .i32⟩
  | .hbm, ⟨2, _⟩ => ⟨S16, .i32⟩
  | .hbm, ⟨3, _⟩ => ⟨S1, .i32⟩
  | .hbm, ⟨4, _⟩ => ⟨S15, .i32⟩
  | .hbm, ⟨5, _⟩ => ⟨S16, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S_, .i32⟩
  | .hbm, ⟨14, _⟩ => ⟨S1600000, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S_, .i32⟩
  | .hbm, ⟨24, _⟩ => ⟨S16, .i32⟩
  | .hbm, ⟨25, _⟩ => ⟨S1600000, .i32⟩
  | .hbm, ⟨26, _⟩ => ⟨S_, .i32⟩
  | .hbm, ⟨27, _⟩ => ⟨S_, .i32⟩
  | .hbm, ⟨28, _⟩ => ⟨S1600000, .i32⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S_, .f32⟩
  | .hbm, ⟨55, _⟩ => ⟨S16x128, .f32⟩
  | .hbm, ⟨56, _⟩ => ⟨S1600000x1, .i32⟩
  | .hbm, ⟨57, _⟩ => ⟨S16x128, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16x1, .f32⟩
  | .hbm, ⟨63, _⟩ => ⟨S16x128, .f32⟩
  | .hbm, ⟨64, _⟩ => ⟨S16x128, .f32⟩
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_6 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩

abbrev nD : Nat := 1
abbrev τ : Topo := Topo.v7x

variable {F : FTy → Type} [FloatOps F]

class Facts₀ : Prop where
  slices_S16_S1_15 : S16.Slices ![15] S1
  slices_S16_S15_0 : S16.Slices ![0] S15
  concatenates_S1_S15_S16_d0 : Shape.Concatenates [S1, S15] S16 0
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S1600000 : S_.BroadcastsInDim S1600000 (![] : Fin 0 → Fin S1600000.rank)
  bcast_S_S16 : S_.BroadcastsInDim S16 (![] : Fin 0 → Fin S16.rank)
  bcast_S16_S16x1_0 : S16.BroadcastsInDim S16x1 (![0] : Fin 1 → Fin S16x1.rank)
  reduceWindows_S1600000_S1600000_w1600000s1p1599999_0 : S1600000.ReduceWindows (![1600000] : Fin 1 → Nat) ![1] ![1599999] ![0] S1600000
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S_S16x128 : S_.BroadcastsInDim S16x128 (![] : Fin 0 → Fin S16x128.rank)
  bcast_S16x1_S16x128_0_1 : S16x1.BroadcastsInDim S16x128 (![0, 1] : Fin 2 → Fin S16x128.rank)
  scatter_S16_S1_S__n_0_0_0_wf : ScatterDims.WF S16 S1 S_ [] [0] [0] 0
  scatter_S1600000_S16x1_S16_n_0_0_1_wf : ScatterDims.WF S1600000 S16x1 S16 [] [0] [0] 1
  gather_S16_S1600000x1_S1600000_n_0_n_n_0_1_1_wf : GatherDims.WF S16 S1600000x1 S1600000 [] [0] [] [0] [] 1 ![1]
  scatter_S16x128_S1600000x1_S1600000x128_1_0_0_1_wf : ScatterDims.WF S16x128 S1600000x1 S1600000x128 [1] [0] [0] 1

variable [Facts₀]

def scatter_S16_S1_S__n_0_0_0 : ScatterDims S16 S1 S_ where
  updateWindowDims := []
  insertedWindowDims := [0]
  scatterDimsToOperandDims := [0]
  indexVectorDim := 0
  wf := scatter_S16_S1_S__n_0_0_0_wf
def scatter_S1600000_S16x1_S16_n_0_0_1 : ScatterDims S1600000 S16x1 S16 where
  updateWindowDims := []
  insertedWindowDims := [0]
  scatterDimsToOperandDims := [0]
  indexVectorDim := 1
  wf := scatter_S1600000_S16x1_S16_n_0_0_1_wf
def gather_S16_S1600000x1_S1600000_n_0_n_n_0_1_1 : GatherDims S16 S1600000x1 S1600000 where
  offsetDims := []
  collapsedSliceDims := [0]
  operandBatchingDims := []
  startIndicesBatchingDims := []
  startIndexMap := [0]
  indexVectorDim := 1
  sliceSizes := ![1]
  wf := gather_S16_S1600000x1_S1600000_n_0_n_n_0_1_1_wf
def scatter_S16x128_S1600000x1_S1600000x128_1_0_0_1 : ScatterDims S16x128 S1600000x1 S1600000x128 where
  updateWindowDims := [1]
  insertedWindowDims := [0]
  scatterDimsToOperandDims := [0]
  indexVectorDim := 1
  wf := scatter_S16x128_S1600000x1_S1600000x128_1_0_0_1_wf

class Facts : Prop extends Facts₀ where

variable [Facts]
-- ==== Proof.CaseValues.lean ====
import proofs.«178933_j54640573939778_2_alg».proof.Proof.Gen.KernelIdeal.Frame
import Idealize.ShloMosaic.Lib.Pipeline.Value
import Idealize.ShloMosaic.Lib.Tactic

/-!
# What the body leaves at a grid point, case by case

The body keeps a running [16, 128] block of sums in a scratch buffer. With `s` the point's block of ids and `x` its
block of rows, every point replaces the scratch contents `a` by `step s x a` — `a` plus the product of the 0/1
matrix of `s` with `x` (the payload `k0_pay2`) — where at the first point of a core's row range `a` is the zero
block the body has just stored (`k0_pay1`), and elsewhere what the point before left. At the last point of a
core's range the body also copies the new scratch contents, as a [1, 16, 128] block, to the output (`k0_pay3`).

Each statement reads the stores the body's run found back as one value: the last store covers the whole buffer, a
load that follows a covering store reads that store's value, and a load of a whole staging buffer reads its contents.
-/

set_option maxRecDepth 16384

noncomputable section

open Idealize.ShloMosaic Idealize.ShloMosaic.TcCoe Idealize.SL.Sem

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point of a core's range the scratch ends at the step from the zero block. -/
theorem scratch_first (c : Dev nD) (i : grid0.Coords) (a2 : Memref sig .tc .vmem S16000x1 .i32) (h2 : a2.IsWhole)
    (a3 : Memref sig .tc .vmem S16000x128 .f32) (h3 : a3.IsWhole) (a4 : Memref sig .tc .vmem S1x16x128 .f32) (h4 : a4.IsWhole)
    (a5 : Memref sig .tc .vmem S16x128 .f32) (h5 : a5.IsWhole) (hc0 : cond0_0 i) (hc1 : ¬cond0_1 i)
    (x0 : Vec F S16000x1 .i32) (x1 : Vec F S16000x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x128) hz2, View.readCov_unit_zero (S := S16x128) _ hz2]
  simp only [View.readAt_eq_ld, h2.read_unread, h3.read_unread, h5.read_unread, View.ld_unit_zero (S := S16000x1) hz2,
    View.ld_unit_zero (S := S16000x128) hz2, View.ld_unit_zero (S := S16x128) hz2]

/-- At a middle point the scratch ends at the step from what the point before left. -/
theorem scratch_middle (c : Dev nD) (i : grid0.Coords) (a2 : Memref sig .tc .vmem S16000x1 .i32) (h2 : a2.IsWhole)
    (a3 : Memref sig .tc .vmem S16000x128 .f32) (h3 : a3.IsWhole) (a4 : Memref sig .tc .vmem S1x16x128 .f32) (h4 : a4.IsWhole)
    (a5 : Memref sig .tc .vmem S16x128 .f32) (h5 : a5.IsWhole) (hc0 : ¬cond0_0 i) (hc1 : ¬cond0_1 i)
    (x0 : Vec F S16000x1 .i32) (x1 : Vec F S16000x128 .f32) (xs0 : Vec F S16x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S16000x1) hz2,
    View.ld_unit_zero (S := S16000x128) hz2, View.ld_unit_zero (S := S16x128) hz2]

/-- At the last point of a core's range the scratch ends at the same step … -/
theorem scratch_last (c : Dev nD) (i : grid0.Coords) (a2 : Memref sig .tc .vmem S16000x1 .i32) (h2 : a2.IsWhole)
    (a3 : Memref sig .tc .vmem S16000x128 .f32) (h3 : a3.IsWhole) (a4 : Memref sig .tc .vmem S1x16x128 .f32) (h4 : a4.IsWhole)
    (a5 : Memref sig .tc .vmem S16x128 .f32) (h5 : a5.IsWhole) (hc0 : ¬cond0_0 i) (hc1 : cond0_1 i)
    (x0 : Vec F S16000x1 .i32) (x1 : Vec F S16000x128 .f32) (xs0 : Vec F S16x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S16000x1) hz2,
    View.ld_unit_zero (S := S16000x128) hz2, View.ld_unit_zero (S := S16x128) hz2]

/-- … and the output block is that value as a [1, 16, 128] block. -/
theorem output_last (c : Dev nD) (i : grid0.Coords) (a2 : Memref sig .tc .vmem S16000x1 .i32) (h2 : a2.IsWhole)
    (a3 : Memref sig .tc .vmem S16000x128 .f32) (h3 : a3.IsWhole) (a4 : Memref sig .tc .vmem S1x16x128 .f32) (h4 : a4.IsWhole)
    (a5 : Memref sig .tc .vmem S16x128 .f32) (h5 : a5.IsWhole) (hc0 : ¬cond0_0 i) (hc1 : cond0_1 i)
    (x0 : Vec F S16000x1 .i32) (x1 : Vec F S16000x128 .f32) (xs0 : Vec F S16x128 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S16x128) _ hz2]
  simp only [View.readAt_eq_ld, h2.read_unread, h3.read_unread, h5.read_unread, View.ld_unit_zero (S := S16000x1) hz2,
    View.ld_unit_zero (S := S16000x128) hz2, View.ld_unit_zero (S := S16x128) hz2]

end Cert.KernelIdeal.CaseValues

end
-- ==== Proof.StepAtEntry.lean ====
import proofs.«178933_j54640573939778_2_alg».proof.Proof.Gen.KernelIdeal.Skeleton
import Idealize.ShloMosaic.PureOps.Ideal.Laws
import Idealize.ShloMosaic.Lib.ValueIdx
import Idealize.ShloMosaic.Lib.Pipeline.Value

/-!
# The body's arithmetic, entry by entry

Over the extended reals, with `s` a block of 16 000 id words, `x` the block of the 16 000 rows they belong to and
`a` a [16, 128] block:
* the zero block the body stores at the first point of a core's range is `0` everywhere;
* the step `k0_pay2 s x a` at `(b, ch)` is `a (b, ch)` plus the sum over the block's rows `k` of `hit (s k) b · x (k, ch)`,
  where `hit w b` is `1` when the word `w` is the word of `b` and `0` otherwise: the 0/1 matrix is the comparison of
  the ids, laid along 16 columns, with the column numbers, and the product contracts the row axis of both factors
  (rounding a factor to a narrower format is the identity over the extended reals);
* the output block `k0_pay3 v` at `(0, b, ch)` is `v (b, ch)`.
-/

noncomputable section

open scoped BigOperators

namespace Cert.KernelIdeal.StepAtEntry

open Cert.KernelIdeal Cert.KernelIdeal.Gen Idealize.ShloMosaic Idealize.ShloMosaic.ValueIdx

/-- The weight of a row with id word `w` in segment `b`'s sum. -/
def hit (w : BitVec 32) (b : Fin 16) : EReal := if w = BitVec.ofNat 32 b.val then 1 else 0

/-- The zero block is zero. -/
theorem zero_block_apply (j : S16x128.Idx) : k0_pay1 (F := Ideal) j = 0 := by
  unfold k0_pay1
  rw [shapeCast_self]
  show Ideal.ofBits .f32 0x00000000#32 = 0
  exact Ideal.ofBits_zero_f32

/-- The ids laid along 16 columns, at `(k, b)`, are row `k`'s id. -/
theorem ids_cols_apply (s : IVec S16000x1 32) (k : Fin 16000) (b : Fin 16) :
    broadcastTo S16000x16 (shapeCast S16000x1 s shapeCasts_S16000x1_S16000x1) broadcasts_S16000x1_S16000x16 (ix2 k b)
      = s (ix2 k 0) := by
  rw [shapeCast_self]
  refine broadcastTo_apply s _ (ix2 k b) (ix2 k 0) (fun a => ?_)
  match a with
  | ⟨0, _⟩ => rfl
  | ⟨1, _⟩ => rfl

/-- The column numbers laid along 16 000 rows, at `(k, b)`, are the word of `b`. -/
theorem cols_rows_apply (k : Fin 16000) (b : Fin 16) :
    broadcastTo S16000x16 (iota .tc S1x16 32 [1] iota_S1x16_d1_w32) broadcasts_S1x16_S16000x16 (ix2 k b)
      = BitVec.ofNat 32 b.val := by
  rw [broadcastTo_apply (iota .tc S1x16 32 [1] iota_S1x16_d1_w32) _ (ix2 k b) (ix2 (0 : Fin 1) b) (fun a => by
    match a with
    | ⟨0, _⟩ => rfl
    | ⟨1, _⟩ => rfl)]
  exact iota_single_apply .tc S1x16 32 1 iota_S1x16_d1_w32 (ix2 (0 : Fin 1) b)

/-- The 0/1 matrix at `(k, b)` is the weight of row `k` in segment `b`. -/
theorem onehot_apply (s : IVec S16000x1 32) (k : Fin 16000) (b : Fin 16) :
    (truncf .bf16 (sitofp (F := Ideal) .f32 (extui 32 (cmpi .eq
        (broadcastTo S16000x16 (shapeCast S16000x1 s shapeCasts_S16000x1_S16000x1) broadcasts_S16000x1_S16000x16)
        (broadcastTo S16000x16 (iota .tc S1x16 32 [1] iota_S1x16_d1_w32) broadcasts_S1x16_S16000x16)) natLt_1_32))
      bitsLt_bf16_f32 : FVec Ideal S16000x16 .bf16) (ix2 k b) = hit (s (ix2 k 0)) b := by
  rw [truncf_apply, sitofp_apply, extui_apply]
  show FloatOps.sitofp (F := Ideal) .f32 ((IntOp.cmpi .eq
      (broadcastTo S16000x16 (shapeCast S16000x1 s shapeCasts_S16000x1_S16000x1) broadcasts_S16000x1_S16000x16 (ix2 k b))
      (broadcastTo S16000x16 (iota .tc S1x16 32 [1] iota_S1x16_d1_w32) broadcasts_S1x16_S16000x16 (ix2 k b))).setWidth 32) = _
  rw [ids_cols_apply, cols_rows_apply]
  have one_word : ((BitVec.ofBool true).setWidth 32).toInt = 1 := by decide
  have zero_word : ((BitVec.ofBool false).setWidth 32).toInt = 0 := by decide
  unfold hit IntOp.cmpi
  by_cases h : s (ix2 k 0) = BitVec.ofNat 32 b.val
  · rw [if_pos h]
    have : (s (ix2 k 0) == BitVec.ofNat 32 b.val) = true := by simpa using h
    simp only [this]
    show ((((BitVec.ofBool true).setWidth 32).toInt : ℝ) : EReal) = 1
    rw [one_word]
    simp
  · rw [if_neg h]
    have : (s (ix2 k 0) == BitVec.ofNat 32 b.val) = false := by simpa using h
    simp only [this]
    show ((((BitVec.ofBool false).setWidth 32).toInt : ℝ) : EReal) = 0
    rw [zero_word]
    simp

/-! ## The product with the 0/1 matrix -/

/-- The product's dimension numbers: both factors contract their row axis. -/
abbrev rowsByRows : DotDims S16000x16 S16000x128 S16x128 := dot_S16000x16_S16000x128_S16x128_0_0_1_1_n_n

/-- The rows of a block number the contraction. -/
abbrev rowOf : rowsByRows.contr.Idx ≃ Fin 16000 := contrEquiv1 rowsByRows 16000 rfl rfl

/-- At output entry `(b, ch)` and row `k` the 0/1 matrix is read at `(k, b)` … -/
theorem left_entry (b : Fin 16) (ch : Fin 128) (k : Fin 16000) :
    rowsByRows.lhsIdx (ix2 b ch) (rowOf.symm k) = ix2 k b := by
  funext a
  refine Fin.ext ?_
  match a with
  | ⟨0, _⟩ =>
    exact (DotDims.lhsIdx_val_of_single rowsByRows (cl := (0 : Fin 2)) rfl (ix2 b ch) (rowOf.symm k)).trans
      (contrEquiv1_symm_val rowsByRows 16000 rfl rfl k)
  | ⟨1, _⟩ => rfl

/-- … and the block of rows at `(k, ch)`. -/
theorem right_entry (b : Fin 16) (ch : Fin 128) (k : Fin 16000) :
    rowsByRows.rhsIdx (ix2 b ch) (rowOf.symm k) = ix2 k ch := by
  funext a
  refine Fin.ext ?_
  match a with
  | ⟨0, _⟩ =>
    exact (DotDims.rhsIdx_val_of_single rowsByRows (cr := (0 : Fin 2)) rfl (ix2 b ch) (rowOf.symm k)).trans
      (contrEquiv1_symm_val rowsByRows 16000 rfl rfl k)
  | ⟨1, _⟩ => rfl

/-- THE STEP AT AN ENTRY: what was there plus the block's rows weighted by their ids. -/
theorem step_apply (s : IVec S16000x1 32) (x : FVec Ideal S16000x128 .f32) (a : FVec Ideal S16x128 .f32)
    (b : Fin 16) (ch : Fin 128) :
    k0_pay2 (F := Ideal) s x a (ix2 b ch) = a (ix2 b ch) + ∑ k : Fin 16000, hit (s (ix2 k 0)) b * x (ix2 k ch) := by
  unfold k0_pay2
  dsimp only
  rw [shapeCast_self, addf_apply]
  congr 1
  simp only [matmul]
  rw [Ideal.matmul_constant_zero_apply, ← Equiv.sum_comp rowOf.symm]
  refine Finset.sum_congr rfl fun k _ => ?_
  rw [left_entry, right_entry, onehot_apply, truncf_apply]

/-- The output block at `(0, b, ch)` is the [16, 128] block at `(b, ch)`. -/
theorem output_apply (v : FVec Ideal S16x128 .f32) (b : Fin 16) (ch : Fin 128) :
    k0_pay3 (F := Ideal) v (ix3 (0 : Fin 1) b ch) = v (ix2 b ch) := by
  unfold k0_pay3
  refine (shapeCast_addUnit_apply ![16, 128] v shapeCasts_S16x128_S1x16x128 (ix3 (0 : Fin 1) b ch)).trans (congrArg v ?_)
  funext a
  match a with
  | ⟨0, _⟩ => rfl
  | ⟨1, _⟩ => rfl

end Cert.KernelIdeal.StepAtEntry

end
-- ==== Proof.Accumulate.lean ====
import proofs.«178933_j54640573939778_2_alg».proof.Proof.CaseValues
import proofs.«178933_j54640573939778_2_alg».proof.Proof.StepAtEntry

/-!
# The running sums, point by point

A core runs its 50 grid points in order. Write `tile p` at `(b, ch)` for the contribution of point `p`: the sum over
the 16 000 rows `k` of its blocks of `hit (id of row k) b` times the row's entry in column `ch`. The scratch block
after point `n` is, entry by entry, the sum of `tile p` over the points `p` of the same core up to `n`, that is
over `n - n % 50 ≤ p ≤ n`: at the first point of a core's range the step starts from the zero block, elsewhere
from what the point before left — by induction on `n`, never by enumerating the grid. At the last point of a
core's range the output block holds the same sums as a [1, 16, 128] block.
-/

set_option maxRecDepth 16384

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.KernelIdeal.StepAtEntry

variable (m : (ℓ : Loc nD τ sig) → Buf (Elt Ideal) ℓ)

/-- The scratch block after point `t`. -/
abbrev scratchAt (c : Dev nD) (t : Fin cfg0.N) : Vec Ideal S16x128 .f32 := (outsAt0 m c t.val t.isLt).2

/-- At the first point of a core's range the scratch is the step from the zero block. -/
theorem scratch_start (c : Dev nD) (t : Fin cfg0.N) (h0 : t.val % 50 = 0) :
    scratchAt m c t = k0_pay2 (iblk m c 0 t) (iblk m c 1 t) (k0_pay1 (F := Ideal)) := by
  have hN : t.val < 100 := lt_of_lt_of_eq t.isLt (show cfg0.N = 100 from N_0)
  have h1 : ¬t.val % 50 = 49 := by omega
  exact (congrArg Prod.snd (outsAt0_A m c t h0 h1)).trans
    (CaseValues.scratch_first (F := Ideal) c (grid0.coords t) (ms0_0 t) (hs0_0 t) (ms0_1 t) (hs0_1 t) (ms0_2 t) (hs0_2 t)
      scM0_0 (Memref.isWhole_whole _) ((hcond0_0 t).mpr h0) (fun h => h1 ((hcond0_1 t).mp h)) (iblk m c 0 t) (iblk m c 1 t))

/-- Elsewhere it is the step from what the point before left. -/
theorem scratch_step (c : Dev nD) (t : Fin cfg0.N) (h0 : ¬t.val % 50 = 0) :
    scratchAt m c t = k0_pay2 (iblk m c 0 t) (iblk m c 1 t)
      (outsAt0 m c (t.val - 1) (Nat.lt_of_le_of_lt (Nat.sub_le _ _) t.isLt)).2 := by
  by_cases h1 : t.val % 50 = 49
  · exact (congrArg Prod.snd (outsAt0_C m c t h0 h1)).trans
      (CaseValues.scratch_last (F := Ideal) c (grid0.coords t) (ms0_0 t) (hs0_0 t) (ms0_1 t) (hs0_1 t) (ms0_2 t) (hs0_2 t)
        scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2)
  · exact (congrArg Prod.snd (outsAt0_B m c t h0 h1)).trans
      (CaseValues.scratch_middle (F := Ideal) c (grid0.coords t) (ms0_0 t) (hs0_0 t) (ms0_1 t) (hs0_1 t) (ms0_2 t) (hs0_2 t)
        scM0_0 (Memref.isWhole_whole _) (fun h => h0 ((hcond0_0 t).mp h)) (fun h => h1 ((hcond0_1 t).mp h)) (iblk m c 0 t)
        (iblk m c 1 t) (outsAt0 m c (t.val - 1) (Nat.lt_of_le_of_lt (Nat.sub_le _ _) t.isLt)).2)

/-- At the last point of a core's range the output block is the new scratch as a [1, 16, 128] block. -/
theorem output_at_last (c : Dev nD) (t : Fin cfg0.N) (h1 : t.val % 50 = 49) :
    (outsAt0 m c t.val t.isLt).1 = k0_pay3 (scratchAt m c t) := by
  have h0 : ¬t.val % 50 = 0 := by omega
  have e1 := (congrArg Prod.fst (outsAt0_C m c t h0 h1)).trans
    (CaseValues.output_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)
  have e2 := scratch_step m c t h0
  exact e1.trans (congrArg k0_pay3 e2.symm)

/-- Point `p`'s contribution at `(b, ch)`; zero past the grid. -/
def tile (c : Dev nD) (b : Fin 16) (ch : Fin 128) (p : ℕ) : EReal :=
  if h : p < cfg0.N then
    ∑ k : Fin 16000, hit ((iblk m c 0 ⟨p, h⟩ : Vec Ideal S16000x1 .i32) (ix2 k 0)) b
      * (iblk m c 1 ⟨p, h⟩ : Vec Ideal S16000x128 .f32) (ix2 k ch)
  else 0

theorem tile_of_lt (c : Dev nD) (b : Fin 16) (ch : Fin 128) (t : Fin cfg0.N) :
    tile m c b ch t.val = ∑ k : Fin 16000, hit ((iblk m c 0 t : Vec Ideal S16000x1 .i32) (ix2 k 0)) b
      * (iblk m c 1 t : Vec Ideal S16000x128 .f32) (ix2 k ch) := by
  unfold tile
  rw [dif_pos t.isLt]

/-- THE RUNNING SUM: the scratch after point `n` is the sum of the contributions of its core's points up to `n`. -/
theorem scratch_eq (c : Dev nD) (b : Fin 16) (ch : Fin 128) : ∀ (n : ℕ) (hn : n < cfg0.N),
    (outsAt0 m c n hn).2 (ix2 b ch) = ∑ p ∈ Finset.Ico (n - n % 50) (n + 1), tile m c b ch p
  | 0, hn => by
    have e := congrFun (scratch_start m c ⟨0, hn⟩ rfl) (ix2 b ch)
    refine e.trans ?_
    refine (step_apply (iblk m c 0 ⟨0, hn⟩) (iblk m c 1 ⟨0, hn⟩) (k0_pay1 (F := Ideal)) b ch).trans ?_
    rw [zero_block_apply, zero_add, ← tile_of_lt m c b ch ⟨0, hn⟩]
    show tile m c b ch 0 = ∑ p ∈ Finset.Ico 0 1, tile m c b ch p
    rw [Finset.sum_Ico_succ_top (Nat.le_refl 0), Finset.Ico_self, Finset.sum_empty, zero_add]
  | n + 1, hn => by
    by_cases h0 : (n + 1) % 50 = 0
    · have e := congrFun (scratch_start m c ⟨n + 1, hn⟩ h0) (ix2 b ch)
      refine e.trans ?_
      refine (step_apply (iblk m c 0 ⟨n + 1, hn⟩) (iblk m c 1 ⟨n + 1, hn⟩) (k0_pay1 (F := Ideal)) b ch).trans ?_
      rw [zero_block_apply, zero_add, ← tile_of_lt m c b ch ⟨n + 1, hn⟩]
      show tile m c b ch (n + 1) = _
      rw [h0, Nat.sub_zero, Finset.sum_Ico_succ_top (Nat.le_refl (n + 1)), Finset.Ico_self, Finset.sum_empty, zero_add]
    · have e := congrFun (scratch_step m c ⟨n + 1, hn⟩ h0) (ix2 b ch)
      refine e.trans ?_
      refine (step_apply (iblk m c 0 ⟨n + 1, hn⟩) (iblk m c 1 ⟨n + 1, hn⟩) _ b ch).trans ?_
      rw [← tile_of_lt m c b ch ⟨n + 1, hn⟩]
      show (outsAt0 m c n _).2 (ix2 b ch) + tile m c b ch (n + 1) = _
      rw [scratch_eq c b ch n (Nat.lt_of_succ_lt hn)]
      have hlow : n + 1 - (n + 1) % 50 = n - n % 50 := by omega
      have hle : n - n % 50 ≤ n + 1 := by omega
      rw [hlow, Finset.sum_Ico_succ_top hle]

end Cert.KernelIdeal.Accumulate

end
-- ==== Proof.SegmentMean.lean ====
import Idealize.ShloMosaic.PureOps.Ideal
import Idealize.ShloMosaic.Lib.ValueIdx

/-!
# Segment means of the rows of a table

For a table `x` of 1 600 000 rows and 128 columns, a segment id per row (a 32-bit word) and a count per
segment (16 segments), the mean of segment `b` in column `ch` is the sum of the entries `x r ch` over the rows
`r` whose id, read as a signed integer, is `b`, divided by the larger of the segment's count (as a number)
and one. A row whose id is negative or at least 16 belongs to no segment and enters no sum.

Both programs of this certificate end with this array: one adds the rows up tile by tile through a
product with a 0/1 matrix, the other adds each row into the place its id names.
-/

noncomputable section

open scoped BigOperators

namespace Cert.SegmentMean

open Idealize.ShloMosaic Idealize.ShloMosaic.ValueIdx

/-- The table of rows, the ids (one per row), the sums (one row per segment), the counts (one per segment),
    the counts as a column, and a scalar. -/
abbrev Rows : Shape := ⟨2, ![1600000, 128]⟩
abbrev Ids : Shape := ⟨1, ![1600000]⟩
abbrev Sums : Shape := ⟨2, ![16, 128]⟩
abbrev Segs : Shape := ⟨1, ![16]⟩
abbrev SegCol : Shape := ⟨2, ![16, 1]⟩
abbrev Scal : Shape := ⟨0, ![]⟩

theorem bcast_scal_segs : Scal.BroadcastsInDim Segs (![] : Fin 0 → Fin Segs.rank) := by decide
theorem bcast_segs_col : Segs.BroadcastsInDim SegCol (![0] : Fin 1 → Fin SegCol.rank) := by decide
theorem bcast_col_sums : SegCol.BroadcastsInDim Sums (![0, 1] : Fin 2 → Fin Sums.rank) := by decide

/-- The sum over the rows of segment `b` of column `ch`: a row enters when its id word, read signed, is `b`. -/
def segSumAt (x : FVec Ideal Rows .f32) (ids : IVec Ids 32) (b : Fin 16) (ch : Fin 128) : EReal :=
  ∑ r : Fin 1600000, if (ids (ix1 r)).toInt = (b.val : Int) then x (ix2 r ch) else 0

/-- The segment sums as an array `[16, 128]`. -/
def segSum (x : FVec Ideal Rows .f32) (ids : IVec Ids 32) : FVec Ideal Sums .f32 :=
  fun j => segSumAt x ids (j 0) (j 1)

theorem segSum_apply (x : FVec Ideal Rows .f32) (ids : IVec Ids 32) (b : Fin 16) (ch : Fin 128) :
    segSum x ids (ix2 b ch) = segSumAt x ids b ch := rfl

/-- The divisor: each segment's count as a number, at least one, laid along the 128 columns. -/
def counts (nv : IVec Segs 32) : FVec Ideal Sums .f32 :=
  broadcastInDim Sums ![0, 1] bcast_col_sums
    (broadcastInDim SegCol ![0] bcast_segs_col
      (maximumf (sitofp (F := Ideal) .f32 nv)
        (broadcastInDim Segs ![] bcast_scal_segs (constant (F := Ideal) Scal .f32 0x3F800000#32))))

/-- THE RESULT of both programs: the segment sums divided, entry by entry, by the counts. -/
def segMean (x : FVec Ideal Rows .f32) (ids : IVec Ids 32) (nv : IVec Segs 32) : FVec Ideal Sums .f32 :=
  Host.divf (F := Ideal) (segSum x ids) (counts nv)

end Cert.SegmentMean

end
-- ==== Proof.KernelIds.lean ====
import proofs.«178933_j54640573939778_2_alg».proof.Proof.Gen.KernelIdeal.Launch
import proofs.«178933_j54640573939778_2_alg».proof.Proof.SegmentMean
import Idealize.ShloMosaic.Lib.StableHlo.Run

/-!
# The segment ids as the kernel's program computes them

Before its region the program computes one segment id per row from the counts alone: the host operations up to
the value `%17`. They are named here as one list, and the ids as that list's fold over the launch memory read at
`%17`; nothing below ever looks inside them. The region's first window stages this array reshaped to a column.
-/

noncomputable section

namespace Cert.KernelIdeal.Ids

open Cert.KernelIdeal Cert.KernelIdeal.Gen Idealize.ShloMosaic Idealize.ShloMosaic.TcCoe Idealize.SL.Sem

/-- The host operations that compute the ids, in order: every stretch before the reshape to a column. -/
abbrev idOps : List (HloOp τ sig (Elt Ideal)) :=
  List.flatten [hostOps0, hostOps0_1, hostOps0_2, hostOps0_3, hostOps0_4, hostOps0_5, hostOps0_6, hostOps0_7]

/-- The ids on core `c`: what `%17` holds after those operations, from the launch memory `m`. -/
def ids (m : (ℓ : Loc nD τ sig) → Buf (Elt Ideal) ℓ) (c : Dev nD) : IVec Cert.SegmentMean.Ids 32 :=
  StableHlo.after idOps (fun b => m (c, b)) (Proc.devRef .tc main_v17)

end Cert.KernelIdeal.Ids

end
-- ==== Proof.BlockReads.lean ====
import proofs.«178933_j54640573939778_2_alg».proof.Proof.Gen.KernelIdeal.Frame
import proofs.«178933_j54640573939778_2_alg».proof.Proof.KernelIds
import Idealize.ShloMosaic.Lib.Pipeline.Value
import Idealize.ShloMosaic.Lib.StableHlo.Run

/-!
# The input blocks of a grid point, entry by entry

Grid point `t` (of 100: core `t / 50`, step `t % 50`) stages block `t` of both inputs: the 16 000 consecutive rows
`16000 · t + k` of the table and of the id column. The id column the region finds is the array of ids reshaped
from [1 600 000] to [1 600 000, 1], so its entry `(r, 0)` is the id of row `r`; the table is found as launched.
-/

set_option maxRecDepth 16384
set_option Elab.async false

noncomputable section

namespace Cert.KernelIdeal.BlockReads

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- Two stretches of host operations run one after the other are their concatenation run as one. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- Both input windows are at block `t` along the rows, block 0 along the columns. -/
theorem ids_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem rows_index : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Reading block `t` of ANY table `A` at `(k, ch)` reads `A` at row `16000 · t + k`. -/
theorem read_rows (A : Vec Ideal S1600000x128 .f32) (t : Fin cfg0.N) (k : Fin 16000) (ch : Fin 128)
    (hr : 16000 * t.val + k.val < 1600000) :
    ((cfg0.win 1).blk t).view.read (Elt Ideal) A (ix2 k ch) = A (ix2 ⟨16000 * t.val + k.val, hr⟩ ch) := by
  have h : ((cfg0.win 1).blk t).view.emb (ix2 k ch) = ix2 ⟨16000 * t.val + k.val, hr⟩ ch := by
    funext a; apply Fin.ext
    match a with
    | ⟨0, _⟩ =>
      show win0_1.index t (0 : Fin 2) * 16000 + 1 * k.val = 16000 * t.val + k.val
      rw [(rows_index t).1]; omega
    | ⟨1, _⟩ =>
      show win0_1.index t (1 : Fin 2) * 128 + 1 * ch.val = ch.val
      rw [(rows_index t).2]; omega
  show A (((cfg0.win 1).blk t).view.emb (ix2 k ch)) = _
  rw [h]

/-- Reading block `t` of ANY one-column array `A` at `(k, 0)` reads `A` at row `16000 · t + k`. -/
theorem read_ids (A : Vec Ideal S1600000x1 .i32) (t : Fin cfg0.N) (k : Fin 16000)
    (hr : 16000 * t.val + k.val < 1600000) :
    ((cfg0.win 0).blk t).view.read (Elt Ideal) A (ix2 k (0 : Fin 1)) = A (ix2 ⟨16000 * t.val + k.val, hr⟩ (0 : Fin 1)) := by
  have h : ((cfg0.win 0).blk t).view.emb (ix2 k (0 : Fin 1)) = ix2 ⟨16000 * t.val + k.val, hr⟩ (0 : Fin 1) := by
    funext a; apply Fin.ext
    match a with
    | ⟨0, _⟩ =>
      show win0_0.index t (0 : Fin 2) * 16000 + 1 * k.val = 16000 * t.val + k.val
      rw [(ids_index t).1]; omega
    | ⟨1, _⟩ =>
      show win0_0.index t (1 : Fin 2) * 1 + 1 * 0 = 0
      rw [(ids_index t).2]
  show A (((cfg0.win 0).blk t).view.emb (ix2 k (0 : Fin 1))) = _
  rw [h]

/-- The table's block at point `t`, entry `(k, ch)`: row `16000 · t + k` of the table as the region finds it. -/
theorem rows_block (c : Dev nD) (t : Fin cfg0.N) (k : Fin 16000) (ch : Fin 128)
    (hr : 16000 * t.val + k.val < 1600000) :
    (iblk m c 1 t : Vec Ideal S16000x128 .f32) (ix2 k ch)
      = V m c (Pipeline.arrRef spec0 1) (ix2 ⟨16000 * t.val + k.val, hr⟩ ch) := by
  unfold iblk
  exact read_rows (V m c (Pipeline.arrRef spec0 1)) t k ch hr

/-- The id column's block at point `t`, entry `(k, 0)`: entry `(16000 · t + k, 0)` of the column as the region finds it. -/
theorem ids_block (c : Dev nD) (t : Fin cfg0.N) (k : Fin 16000) (hr : 16000 * t.val + k.val < 1600000) :
    (iblk m c 0 t : Vec Ideal S16000x1 .i32) (ix2 k (0 : Fin 1))
      = V m c (Pipeline.arrRef spec0 0) (ix2 ⟨16000 * t.val + k.val, hr⟩ (0 : Fin 1)) := by
  unfold iblk
  exact read_ids (V m c (Pipeline.arrRef spec0 0)) t k hr

/-- The id column the region finds is the ids reshaped to a column. -/
theorem id_column (c : Dev nD) :
    (V m c main_v18 : IVec S1600000x1 32) = shapeCast S1600000x1 (Ids.ids m c) shapeCasts_S1600000_S1600000x1 := by
  have hsplit : (List.flatten [hostOps0, hostOps0_1, hostOps0_2, hostOps0_3, hostOps0_4, hostOps0_5, hostOps0_6, hostOps0_7,
      hostOps0_8] : List (HloOp τ sig (Elt Ideal))) = Ids.idOps ++ hostOps0_8 := by
    simp only [Ids.idOps, List.flatten_cons, List.flatten_nil, List.append_nil, List.append_assoc]
  show after (List.flatten [hostOps0, hostOps0_1, hostOps0_2, hostOps0_3, hostOps0_4, hostOps0_5, hostOps0_6, hostOps0_7,
    hostOps0_8]) (fun b => m (c, b)) (Proc.devRef .tc main_v18) = _
  rw [hsplit, after_append]
  unfold Ids.ids
  generalize after Ids.idOps (fun b => m (c, b)) = W
  after_results
  rfl

/-- So its entry `(r, 0)` is the id of row `r`. -/
theorem id_column_apply (c : Dev nD) (r : Fin 1600000) : V m c main_v18 (ix2 r 0) = Ids.ids m c (ix1 r) := by
  rw [id_column]
  refine shapeCast_apply (Ids.ids m c) shapeCasts_S1600000_S1600000x1 (ix2 r 0) (ix1 r) ?_
  rw [Shape.rowMajor_val_one, Shape.rowMajor_val_two]
  show r.val = r.val * 1 + 0
  omega

end Cert.KernelIdeal.BlockReads

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.TileSums.lean ====
import proofs.«178933_j54640573939778_2_alg».proof.Proof.StepAtEntry
import proofs.«178933_j54640573939778_2_alg».proof.Proof.SegmentMean
import proofs.«178933_j54640573939778_2_alg».proof.Proof.LibTileSum

/-!
# Adding the rows up tile by tile, core by core

Fix a segment `b` and a column `ch`, and let `g r` be row `r`'s term: its entry in column `ch` weighted by
`hit` of its id (zero from row 1 600 000 on). A core `q` adds up its 50 tiles of 16 000 rows, tile `p` being the
rows `16000 · p + k`; the two cores' totals are then added. Regrouping a finite sum uses only that addition is
associative and commutative, so nothing is asked of the entries:
* the tiles `50 q, …, 50 q + 49` add up to the 800 000 rows `800000 · q + j` of core `q`;
* the two cores add up to all 1 600 000 rows;
* a weight `hit w b` times `y` is `y` when the word `w`, read as a signed integer, is `b`, and `0` otherwise,
which makes the total the segment sum `segSumAt`.
-/

noncomputable section

open scoped BigOperators

namespace Cert.TileSums

open Idealize.ShloMosaic Idealize.ShloMosaic.ValueIdx Cert.SegmentMean Cert.KernelIdeal.StepAtEntry

/-- A weight times an entry: the entry when the id word, read signed, is the segment's number, else zero. -/
theorem hit_mul (w : BitVec 32) (b : Fin 16) (y : EReal) :
    hit w b * y = if w.toInt = (b.val : Int) then y else 0 := by
  have hword : (BitVec.ofNat 32 b.val).toInt = (b.val : Int) :=
    (by decide : ∀ b : Fin 16, (BitVec.ofNat 32 b.val).toInt = (b.val : Int)) b
  unfold hit
  by_cases h : w = BitVec.ofNat 32 b.val
  · rw [if_pos h, one_mul, if_pos (by rw [h, hword])]
  · rw [if_neg h, zero_mul, if_neg (fun e => h (BitVec.eq_of_toInt_eq (e.trans hword.symm)))]

/-- Row `r`'s term for segment `b` and column `ch`, zero past the table. -/
def rowTerm (x : FVec Ideal Rows .f32) (ids : IVec Ids 32) (b : Fin 16) (ch : Fin 128) (r : ℕ) : EReal :=
  if h : r < 1600000 then hit (ids (ix1 ⟨r, h⟩)) b * x (ix2 ⟨r, h⟩ ch) else 0

/-- The 50 tiles of core `q` add up to its 800 000 rows. -/
theorem core_tiles (g : ℕ → EReal) (q : ℕ) :
    ∑ p ∈ Finset.Ico (50 * q) (50 * q + 50), ∑ k : Fin 16000, g (16000 * p + k.val)
      = ∑ j : Fin (50 * 16000), g (800000 * q + j.val) := by
  rw [Finset.sum_Ico_eq_sum_range, show 50 * q + 50 - 50 * q = 50 by omega,
    ← Cert.TileSum.sum_tiles 16000 (fun j => g (800000 * q + j)) 50]
  refine Finset.sum_congr rfl fun s _ => Finset.sum_congr rfl fun k _ => ?_
  congr 1
  ring

/-- The two cores add up to all the rows. -/
theorem cores (g : ℕ → EReal) :
    ∑ q ∈ Finset.range 2, ∑ j : Fin (50 * 16000), g (800000 * q + j.val) = ∑ r : Fin 1600000, g r.val :=
  Cert.TileSum.sum_tiles 800000 g 2

/-- THE TOTAL: the two cores' tile-by-tile sums, added to zero, are the segment sum. -/
theorem total (x : FVec Ideal Rows .f32) (ids : IVec Ids 32) (b : Fin 16) (ch : Fin 128) :
    (0 : EReal) + ∑ q : Fin 2, ∑ p ∈ Finset.Ico (50 * q.val) (50 * q.val + 50), ∑ k : Fin 16000,
        rowTerm x ids b ch (16000 * p + k.val)
      = segSumAt x ids b ch := by
  rw [zero_add, ← Finset.sum_range (fun q => ∑ p ∈ Finset.Ico (50 * q) (50 * q + 50), ∑ k : Fin 16000,
    rowTerm x ids b ch (16000 * p + k.val))]
  rw [Finset.sum_congr rfl (fun q _ => core_tiles (rowTerm x ids b ch) q), cores]
  unfold segSumAt
  refine Finset.sum_congr rfl fun r _ => ?_
  unfold rowTerm
  rw [dif_pos r.isLt, hit_mul]

end Cert.TileSums

end
-- ==== Proof.KernelValue.lean ====
import proofs.«178933_j54640573939778_2_alg».proof.Proof.Accumulate
import proofs.«178933_j54640573939778_2_alg».proof.Proof.BlockReads
import proofs.«178933_j54640573939778_2_alg».proof.Proof.TileSums
import Idealize.ShloMosaic.Lib.IdealHost
import Idealize.ShloMosaic.PureOps.Ideal.Laws

/-!
# The kernel program's result

The region's output is an array [2, 16, 128]: row `q` is written once, after the last grid point of core `q`, and
holds that core's sums — entry `(q, b, ch)` is the sum of the contributions `tile p` of the points `50 q ≤ p < 50 q + 50`.
After the region the program adds the two rows (a sum over the leading axis, from zero) and divides by the counts.
A point's contribution is the sum of the row terms of its 16 000 rows, read through its blocks; regrouped, the two
cores' totals are the segment sums, so the program's result is `segMean` of the table, the ids and the counts.
-/

set_option maxRecDepth 16384
set_option Elab.async false

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Cert.KernelIdeal.StepAtEntry Cert.KernelIdeal.Accumulate Cert.KernelIdeal.BlockReads
open Idealize.ShloMosaic.Pipeline (Dat)

variable (m : (ℓ : Loc nD τ sig) → Buf (Elt Ideal) ℓ) (ρ : Dev nD → PrngReg)

/-! ## The output array -/

/-- The output window is at row `t / 50`, and at block 0 along the other two axes. -/
theorem out_index : ∀ t : Fin cfg0.N, win0_2.index t (0 : Fin 3) = t.val / 50 ∧ win0_2.index t (1 : Fin 3) = 0
    ∧ win0_2.index t (2 : Fin 3) = 0 :=
  (by decide +kernel : ∀ t : Fin grid0.N, win0_2.index t (0 : Fin 3) = t.val / 50 ∧ win0_2.index t (1 : Fin 3) = 0
    ∧ win0_2.index t (2 : Fin 3) = 0)

/-- Core `q`'s sums at `(b, ch)`. -/
def coreSumAt (c : Dev nD) (q : ℕ) (b : Fin 16) (ch : Fin 128) : EReal :=
  ∑ p ∈ Finset.Ico (50 * q) (50 * q + 50), tile m c b ch p

/-- The two cores' sums as an array [2, 16, 128]. -/
def coreSums (c : Dev nD) : Vec Ideal S2x16x128 .f32 := fun i => coreSumAt m c (i 0).val (i 1) (i 2)

/-- What the write-back after the last point of a core's range writes is that core's row of `coreSums`. -/
theorem flushed_eq (c : Dev nD) (t : Fin cfg0.N) (hf : (cfg0.win 2).flush t = true) :
    (dats m 0 c).flushed 2 t = ((cfg0.win 2).blk t).view.read (Elt Ideal) (coreSums m c) := by
  have h1 : t.val % 50 = 49 := (flush0_2 t).mp hf
  have hN : t.val < 100 := lt_of_lt_of_eq t.isLt (show cfg0.N = 100 from N_0)
  show (cfg0.win 2).cut (grid0.coords t) ((dats m 0 c).after 2 t) = _
  rw [after0_2, output_at_last m c t h1]
  funext y
  obtain ⟨z, b, ch, rfl⟩ : ∃ (z : Fin 1) (b : Fin 16) (ch : Fin 128), y = ix3 z b ch := ⟨y 0, y 1, y 2, eq_ix3 y⟩
  obtain rfl : z = 0 := Subsingleton.elim _ _
  have he : ((cfg0.win 2).blk t).view.emb (ix3 (0 : Fin 1) b ch) = ix3 (⟨t.val / 50, by omega⟩ : Fin 2) b ch := by
    funext a; apply Fin.ext
    match a with
    | ⟨0, _⟩ =>
      show win0_2.index t (0 : Fin 3) * 1 + 1 * 0 = t.val / 50
      rw [(out_index t).1]; omega
    | ⟨1, _⟩ =>
      show win0_2.index t (1 : Fin 3) * 16 + 1 * b.val = b.val
      rw [(out_index t).2.1]; omega
    | ⟨2, _⟩ =>
      show win0_2.index t (2 : Fin 3) * 128 + 1 * ch.val = ch.val
      rw [(out_index t).2.2]; omega
  show k0_pay3 (scratchAt m c t) (ix3 (0 : Fin 1) b ch) = coreSums m c (((cfg0.win 2).blk t).view.emb (ix3 (0 : Fin 1) b ch))
  rw [he, output_apply]
  show (outsAt0 m c t.val t.isLt).2 (ix2 b ch) = ∑ p ∈ Finset.Ico (50 * (t.val / 50)) (50 * (t.val / 50) + 50), tile m c b ch p
  rw [scratch_eq m c b ch t.val t.isLt]
  have e1 : t.val - t.val % 50 = 50 * (t.val / 50) := by omega
  have e2 : t.val + 1 = 50 * (t.val / 50) + 50 := by omega
  rw [e1, e2]

/-- Every entry of the output array is in the block some write-back writes: row `q` at point `50 q + 49`. -/
theorem covered (i : S2x16x128.Idx) :
    ∃ t : Fin cfg0.N, (cfg0.win 2).flush t = true ∧ i ∈ ((cfg0.win 2).blk t).view.set := by
  have hq : (i 0).val < 2 := (i 0).isLt
  have hb : (i 1).val < 16 := (i 1).isLt
  have hc : (i 2).val < 128 := (i 2).isLt
  have hN : cfg0.N = 100 := N_0
  obtain ⟨t, ht⟩ : ∃ t : Fin cfg0.N, t.val = 50 * (i 0).val + 49 := ⟨⟨50 * (i 0).val + 49, by omega⟩, rfl⟩
  refine ⟨t, (flush0_2 t).mpr (by omega), ?_⟩
  show i ∈ ((View.whole main_v19).slice (win0_2.rect t)).set
  rw [View.set_slice_whole, Rect.mem_set_unit]
  obtain ⟨e0, e1, e2⟩ := out_index t
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 16 ≤ (i 1).val ∧ (i 1).val < win0_2.index t (1 : Fin 3) * 16 + 16
    rw [e1]; omega
  | ⟨2, _⟩ =>
    show win0_2.index t (2 : Fin 3) * 128 ≤ (i 2).val ∧ (i 2).val < win0_2.index t (2 : Fin 3) * 128 + 128
    rw [e2]; omega

/-- So the output array ends holding the two cores' sums. -/
theorem out_array (c : Dev nD) : (dats m 0 c).arrAt 2 cfg0.N = coreSums m c :=
  (dats m 0 c).arrAt_eq_of_cover 2 (coreSums m c) (flushed_eq m c) covered

/-! ## The operations after the region -/

/-- What the program computes after the region from the output array and the counts: the sum over the leading
    axis from zero, divided by the counts as numbers, at least one, laid along the columns. -/
def afterRegion (out : Vec Ideal S2x16x128 .f32) (nv : IVec S16 32) : FVec Ideal S16x128 .f32 :=
  Host.divf (F := Ideal)
    (Host.reduceAdd out (constant (F := Ideal) S_ .f32 0x00000000#32) reducesTo_S2x16x128_S16x128_d0 h_S_)
    (broadcastInDim S16x128 ![0, 1] bcast_S16x1_S16x128_0_1
      (broadcastInDim S16x1 ![0] bcast_S16_S16x1_0
        (maximumf (sitofp (F := Ideal) .f32 nv)
          (broadcastInDim S16 ![] bcast_S_S16 (constant (F := Ideal) S_ .f32 0x3F800000#32)))))

/-- From any contents `W` the nine operations leave the result at `afterRegion` of the output array and the counts. -/
theorem tail_reads (W : Valuation τ sig (Elt Ideal)) :
    after hostOps1 W (Proc.devRef .tc main_v26)
      = afterRegion (W (Proc.devRef .tc main_v19)) (W (Proc.devRef .tc main_arg1)) := by
  unfold afterRegion
  after_results

/-! ## A point's contribution as row terms -/

/-- Point `p`'s contribution is the sum of the row terms of its 16 000 rows `16000 · p + k`. -/
theorem tile_rows (c : Dev nD) (b : Fin 16) (ch : Fin 128) (p : ℕ) (hp : p < 100) :
    tile m c b ch p = ∑ k : Fin 16000, Cert.TileSums.rowTerm (m ((c.tc : Thread nD τ).loc main_arg0)) (Ids.ids m c) b ch
      (16000 * p + k.val) := by
  have hpN : p < cfg0.N := lt_of_lt_of_eq hp (show cfg0.N = 100 from N_0).symm
  have e0 : V m c (Pipeline.arrRef spec0 0) = V m c main_v18 := rfl
  have e1 : V m c (Pipeline.arrRef spec0 1) = V m c main_arg0 := rfl
  rw [tile_of_lt m c b ch ⟨p, hpN⟩]
  refine Finset.sum_congr rfl fun k _ => ?_
  have hk : k.val < 16000 := k.isLt
  have hr : 16000 * p + k.val < 1600000 := by omega
  unfold Cert.TileSums.rowTerm
  rw [dif_pos hr, ids_block m c ⟨p, hpN⟩ k hr, rows_block m c ⟨p, hpN⟩ k ch hr, e0, e1, id_column_apply m c ⟨_, hr⟩,
    V_main_arg0 m c]

/-- The two rows of `coreSums` added from zero are the segment sums. -/
theorem rows_added (c : Dev nD) :
    Host.reduceAdd (coreSums m c) (constant (F := Ideal) S_ .f32 0x00000000#32) reducesTo_S2x16x128_S16x128_d0 h_S_
      = Cert.SegmentMean.segSum (m ((c.tc : Thread nD τ).loc main_arg0)) (Ids.ids m c) := by
  funext j
  obtain ⟨b, ch, rfl⟩ : ∃ (b : Fin 16) (ch : Fin 128), j = ix2 b ch := ⟨j 0, j 1, eq_ix2 j⟩
  have hR : S2x16x128.Reduces [(0 : Fin 3)] S16x128 := by decide
  rw [hostReduceAdd_apply, Ideal.hostReduceAdd_single reducesTo_S2x16x128_S16x128_d0 hR, Cert.SegmentMean.segSum_apply,
    ← Cert.TileSums.total]
  show Ideal.ofBits .f32 0x00000000#32 + ∑ q : Fin 2, coreSums m c (hR.lift (ix2 b ch) q) = _
  rw [Ideal.ofBits_zero_f32]
  refine congrArg (fun s : EReal => 0 + s) ?_
  refine Finset.sum_congr rfl fun q _ => ?_
  show coreSumAt m c q.val b ch = _
  unfold coreSumAt
  refine Finset.sum_congr rfl fun p hp => ?_
  have hq : q.val < 2 := q.isLt
  have hp' := Finset.mem_Ico.mp hp
  exact tile_rows m c b ch p (by omega)

/-- The program's result from the output array is `segMean`. -/
theorem afterRegion_eq (c : Dev nD) :
    afterRegion (coreSums m c) (m ((c.tc : Thread nD τ).loc main_arg1))
      = Cert.SegmentMean.segMean (m ((c.tc : Thread nD τ).loc main_arg0)) (Ids.ids m c) (m ((c.tc : Thread nD τ).loc main_arg1)) := by
  unfold afterRegion Cert.SegmentMean.segMean
  rw [rows_added m c]
  rfl

/-! ## The run -/

/-- What the program's result buffer holds after the operations that follow the region. -/
theorem result_eq (c : Dev nD) :
    Pipeline.afterTail₀ cfgs (dats m) 0 (V0 m) [hostOps1] c main_v26
      = Cert.SegmentMean.segMean (m ((c.tc : Thread nD τ).loc main_arg0)) (Ids.ids m c) (m ((c.tc : Thread nD τ).loc main_arg1)) := by
  unfold Pipeline.afterTail₀
  refine (tail_reads _).trans ?_
  refine (congrArg₂ afterRegion ?_ ?_).trans (afterRegion_eq m c)
  · exact (Pipeline.withArrays_arr spec0 launch0.win.arr_inj c _ _ 2).trans (out_array m c)
  · exact (Pipeline.withArrays_of_ne _ c (V0 m c) _ main_arg1
      (by exact (by decide : ∀ w, Pipeline.arrRef spec0 w ≠ main_arg1))).trans (V_main_arg1 m c)

/-- On every core, from any memory with zero counters: every weakly fair execution of the program terminates with
    the result at `segMean` of the table, the ids and the counts, and the two arguments unchanged. -/
theorem run : θ_run defs (onTc (τ := τ) (main (F := Ideal))) ⟨m, fun _ => 0, ρ⟩ fun r => ∀ c : Dev nD,
      r.2.mem ((c.tc : Thread nD τ).loc main_v26)
        = Cert.SegmentMean.segMean (m ((c.tc : Thread nD τ).loc main_arg0)) (Ids.ids m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v26 (Pipeline.mem_restRefs_of main_v26 (by decide) (by decide))).trans (result_eq m c),
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c)⟩)
    (run_main m ρ)

end Cert.KernelIdeal.KernelValue

end
-- ==== Proof.RefOps.lean ====
import proofs.«178933_j54640573939778_2_alg».proof.Proof.Gen.ReferenceIdeal
import proofs.«178933_j54640573939778_2_alg».proof.Proof.SegmentMean
import Idealize.ShloMosaic.Lib.StableHlo.Run

/-!
# The program that adds each row into the place its id names, as a straight line

The program is a straight line of host operations. The first fifty-two compute one segment id per row from the
counts alone (the ids end in the value `%17`); the last eleven lay the ids as a column, add every row of the table
into the row of a zero table `[16, 128]` that its id names, and divide by the counts (each at least one) laid
along the columns. This module names the two stretches, shows that @main is their concatenation run in order,
and names the ids: the first stretch's fold over the launch memory, read at `%17`.
-/

noncomputable section

namespace Cert.ReferenceIdeal.RefRun

open Cert.ReferenceIdeal Cert.ReferenceIdeal.Gen Idealize.ShloMosaic Idealize.ShloMosaic.TcCoe Idealize.SL.Sem

/-- The operations that compute the ids, in order, the called functions' operations at their calls: the roll of
    the counts, the scatter and running sum that mark where each segment starts, the running sum over the rows,
    and the clamped look-up that ends in `%17`. -/
abbrev idOps : List (HloOp τ sig (Elt Ideal)) :=
  [ StableHlo.nullary main_v0 (iotaInDim S16 32 0),
    StableHlo.TRef.unary (.of main_arg1 : StableHlo.TRef sig ⟨S16, .i32⟩) (.of main_call0_v0 : StableHlo.TRef sig ⟨S1, .i32⟩) (extractStridedSlice S1 ![15] · slices_S16_S1_15),
    StableHlo.TRef.unary (.of main_arg1 : StableHlo.TRef sig ⟨S16, .i32⟩) (.of main_call0_v1 : StableHlo.TRef sig ⟨S15, .i32⟩) (extractStridedSlice S15 ![0] · slices_S16_S15_0),
    StableHlo.TRef.binary (.of main_call0_v0 : StableHlo.TRef sig ⟨S1, .i32⟩) (.of main_call0_v1 : StableHlo.TRef sig ⟨S15, .i32⟩) (.of main_v1 : StableHlo.TRef sig ⟨S16, .i32⟩) (fun a b => concatenate S16 0 [⟨S1, a⟩, ⟨S15, b⟩] concatenates_S1_S15_S16_d0),
    StableHlo.nullary main_c (constantI S_ 32 0#32),
    StableHlo.unary main_c main_v2 (broadcastInDim S1 ![] bcast_S_S1 : (⟨S_, .i32⟩ : BufTy).Contents (Elt Ideal) → (⟨S1, .i32⟩ : BufTy).Contents (Elt Ideal)),
    StableHlo.nullary main_c_0 (constantI S_ 32 0#32),
    StableHlo.ternary main_v1 main_v2 main_c_0 main_v3 ((fun x i u => Host.scatter scatter_S16_S1_S__n_0_0_0 (fun _ b => b) x i u) : (⟨S16, .i32⟩ : BufTy).Contents (Elt Ideal) → (⟨S1, .i32⟩ : BufTy).Contents (Elt Ideal) → (⟨S_, .i32⟩ : BufTy).Contents (Elt Ideal) → (⟨S16, .i32⟩ : BufTy).Contents (Elt Ideal)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v3 : StableHlo.TRef sig ⟨S16, .i32⟩) (.of main_call1_call0_v0 : StableHlo.TRef sig ⟨S_, .i32⟩) (.of main_v4 : StableHlo.TRef sig ⟨S16, .i32⟩) (fun x v => Host.reduceWindow IntOp.addi ![16] ![1] ![15] ![0] x v reduceWindows_S16_S16_w16s1p15_0 h_S_),
    StableHlo.nullary main_c_1 (constantI S_ 32 0#32),
    StableHlo.unary main_c_1 main_v5 (broadcastInDim S1600000 ![] bcast_S_S1600000 : (⟨S_, .i32⟩ : BufTy).Contents (Elt Ideal) → (⟨S1600000, .i32⟩ : BufTy).Contents (Elt Ideal)),
    StableHlo.nullary main_c_2 (constantI S_ 32 0#32),
    StableHlo.unary main_c_2 main_v6 (broadcastInDim S16 ![] bcast_S_S16 : (⟨S_, .i32⟩ : BufTy).Contents (Elt Ideal) → (⟨S16, .i32⟩ : BufTy).Contents (Elt Ideal)),
    StableHlo.binary main_v4 main_v6 main_v7 (cmpi .slt : (⟨S16, .i32⟩ : BufTy).Contents (Elt Ideal) → (⟨S16, .i32⟩ : BufTy).Contents (Elt Ideal) → (⟨S16, .i1⟩ : BufTy).Contents (Elt Ideal)),
    StableHlo.nullary main_c_3 (constantI S_ 32 1600000#32),
    StableHlo.unary main_c_3 main_v8 (broadcastInDim S16 ![] bcast_S_S16 : (⟨S_, .i32⟩ : BufTy).Contents (Elt Ideal) → (⟨S16, .i32⟩ : BufTy).Contents (Elt Ideal)),
    StableHlo.binary main_v4 main_v8 main_v9 (addi : (⟨S16, .i32⟩ : BufTy).Contents (Elt Ideal) → (⟨S16, .i32⟩ : BufTy).Contents (Elt Ideal) → (⟨S16, .i32⟩ : BufTy).Contents (Elt Ideal)),
    StableHlo.ternary main_v7 main_v9 main_v4 main_v10 (select : (⟨S16, .i1⟩ : BufTy).Contents (Elt Ideal) → (⟨S16, .i32⟩ : BufTy).Contents (Elt Ideal) → (⟨S16, .i32⟩ : BufTy).Contents (Elt Ideal) → (⟨S16, .i32⟩ : BufTy).Contents (Elt Ideal)),
    StableHlo.unary main_v10 main_v11 (broadcastInDim S16x1 ![0] bcast_S16_S16x1_0 : (⟨S16, .i32⟩ : BufTy).Contents (Elt Ideal) → (⟨S16x1, .i32⟩ : BufTy).Contents (Elt Ideal)),
    StableHlo.nullary main_c_4 (constantI S_ 32 1#32),
    StableHlo.unary main_c_4 main_v12 (broadcastInDim S16 ![] bcast_S_S16 : (⟨S_, .i32⟩ : BufTy).Contents (Elt Ideal) → (⟨S16, .i32⟩ : BufTy).Contents (Elt Ideal)),
    StableHlo.ternary main_v5 main_v11 main_v12 main_v13 ((fun x i u => Host.scatter scatter_S1600000_S16x1_S16_n_0_0_1 IntOp.addi x i u) : (⟨S1600000, .i32⟩ : BufTy).Contents (Elt Ideal) → (⟨S16x1, .i32⟩ : BufTy).Contents (Elt Ideal) → (⟨S16, .i32⟩ : BufTy).Contents (Elt Ideal) → (⟨S1600000, .i32⟩ : BufTy).Contents (Elt Ideal)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v13 : StableHlo.TRef sig ⟨S1600000, .i32⟩) (.of main_call2_call0_v0 : StableHlo.TRef sig ⟨S_, .i32⟩) (.of main_v14 : StableHlo.TRef sig ⟨S1600000, .i32⟩) (fun x v => Host.reduceWindow IntOp.addi ![1600000] ![1] ![1599999] ![0] x v reduceWindows_S1600000_S1600000_w1600000s1p1599999_0 h_S_),
    StableHlo.nullary main_c_5 (constantI S_ 32 1#32),
    StableHlo.unary main_c_5 main_v15 (broadcastInDim S1600000 ![] bcast_S_S1600000 : (⟨S_, .i32⟩ : BufTy).Contents (Elt Ideal) → (⟨S1600000, .i32⟩ : BufTy).Contents (Elt Ideal)),
    StableHlo.binary main_v14 main_v15 main_v16 (subi : (⟨S1600000, .i32⟩ : BufTy).Contents (Elt Ideal) → (⟨S1600000, .i32⟩ : BufTy).Contents (Elt Ideal) → (⟨S1600000, .i32⟩ : BufTy).Contents (Elt Ideal)),
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1600000, .i32⟩) (broadcastInDim S1600000 ![] bcast_S_S1600000),
    StableHlo.TRef.binary (.of main_v16 : StableHlo.TRef sig ⟨S1600000, .i32⟩) (.of main_call3_v0 : StableHlo.TRef sig ⟨S1600000, .i32⟩) (.of main_call3_v1 : StableHlo.TRef sig ⟨S1600000, .i1⟩) (cmpi .slt),
    StableHlo.TRef.nullary (.of main_call3_c_0 : StableHlo.TRef sig ⟨S_, .i32⟩) (constantI S_ 32 16#32),
    StableHlo.TRef.unary (.of main_call3_c_0 : StableHlo.TRef sig ⟨S_, .i32⟩) (.of main_call3_v2 : StableHlo.TRef sig ⟨S1600000, .i32⟩) (broadcastInDim S1600000 ![] bcast_S_S1600000),
    StableHlo.TRef.binary (.of main_v16 : StableHlo.TRef sig ⟨S1600000, .i32⟩) (.of main_call3_v2 : StableHlo.TRef sig ⟨S1600000, .i32⟩) (.of main_call3_v3 : StableHlo.TRef sig ⟨S1600000, .i32⟩) addi,
    StableHlo.TRef.ternary (.of main_call3_v1 : StableHlo.TRef sig ⟨S1600000, .i1⟩) (.of main_call3_v3 : StableHlo.TRef sig ⟨S1600000, .i32⟩) (.of main_v16 : StableHlo.TRef sig ⟨S1600000, .i32⟩) (.of main_call3_v4 : StableHlo.TRef sig ⟨S1600000, .i32⟩) select,
    StableHlo.TRef.unary main_call3_call0.v0 (.of main_call3_v5 : StableHlo.TRef sig ⟨S1600000x1, .i32⟩) (broadcastInDim S1600000x1 ![0] bcast_S1600000_S1600000x1_0),
    StableHlo.TRef.nullary (.of main_call3_c_1 : StableHlo.TRef sig ⟨S1, .i32⟩) (constantI S1 32 15#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1600000x1, .i32⟩) (broadcastInDim S1600000x1 ![] bcast_S_S1600000x1),
    StableHlo.TRef.binary (.of main_call3_v5 : StableHlo.TRef sig ⟨S1600000x1, .i32⟩) (.of main_call3_v6 : StableHlo.TRef sig ⟨S1600000x1, .i32⟩) (.of main_call3_v7 : StableHlo.TRef sig ⟨S1600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1600000x1, .i32⟩) (broadcastInDim S1600000x1 ![0, 1] bcast_S1x1_S1600000x1_0_1),
    StableHlo.TRef.binary (.of main_call3_v5 : StableHlo.TRef sig ⟨S1600000x1, .i32⟩) (.of main_call3_v9 : StableHlo.TRef sig ⟨S1600000x1, .i32⟩) (.of main_call3_v10 : StableHlo.TRef sig ⟨S1600000x1, .i1⟩) (cmpi .sle),
    StableHlo.TRef.binary (.of main_call3_v7 : StableHlo.TRef sig ⟨S1600000x1, .i1⟩) (.of main_call3_v10 : StableHlo.TRef sig ⟨S1600000x1, .i1⟩) (.of main_call3_v11 : StableHlo.TRef sig ⟨S1600000x1, .i1⟩) andi,
    StableHlo.TRef.nullary (.of main_call3_c_3 : StableHlo.TRef sig ⟨S_, .i1⟩) (constantI S_ 1 1#1),
    StableHlo.TRef.binary (.of main_call3_v11 : StableHlo.TRef sig ⟨S1600000x1, .i1⟩) (.of main_call3_c_3 : StableHlo.TRef sig ⟨S_, .i1⟩) (.of main_call3_v12 : StableHlo.TRef sig ⟨S1600000, .i1⟩) (fun x v => Host.reduce IntOp.andi x v reducesTo_S1600000x1_S1600000_d1 h_S_),
    StableHlo.TRef.binary (.of main_v0 : StableHlo.TRef sig ⟨S16, .i32⟩) (.of main_call3_v5 : StableHlo.TRef sig ⟨S1600000x1, .i32⟩) (.of main_call3_v13 : StableHlo.TRef sig ⟨S1600000, .i32⟩) (fun x i => Host.gather gather_S16_S1600000x1_S1600000_n_0_n_n_0_1_1 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S1600000, .i32⟩) (broadcastInDim S1600000 ![] bcast_S_S1600000),
    StableHlo.TRef.ternary (.of main_call3_v12 : StableHlo.TRef sig ⟨S1600000, .i1⟩) (.of main_call3_v13 : StableHlo.TRef sig ⟨S1600000, .i32⟩) (.of main_call3_v14 : StableHlo.TRef sig ⟨S1600000, .i32⟩) (.of main_v17 : StableHlo.TRef sig ⟨S1600000, .i32⟩) select ]

/-- The operations after the ids: the zero table, the ids as a column, the accumulating scatter of the rows, the
    counts as numbers, at least one, along the columns, and the division. -/
abbrev sumOps : List (HloOp τ sig (Elt Ideal)) :=
  [ StableHlo.nullary main_cst (constant (F := Ideal) S_ .f32 0x00000000#32),
    StableHlo.unary main_cst main_v18 (broadcastInDim S16x128 ![] bcast_S_S16x128 : (⟨S_, .f32⟩ : BufTy).Contents (Elt Ideal) → (⟨S16x128, .f32⟩ : BufTy).Contents (Elt Ideal)),
    StableHlo.unary main_v17 main_v19 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v18 main_v19 main_arg0 main_v20 ((fun x i u => Host.scatterAdd (F := Ideal) (φ := .f32) scatter_S16x128_S1600000x1_S1600000x128_1_0_0_1 x i u) : (⟨S16x128, .f32⟩ : BufTy).Contents (Elt Ideal) → (⟨S1600000x1, .i32⟩ : BufTy).Contents (Elt Ideal) → (⟨S1600000x128, .f32⟩ : BufTy).Contents (Elt Ideal) → (⟨S16x128, .f32⟩ : BufTy).Contents (Elt Ideal)),
    StableHlo.unary main_arg1 main_v21 (sitofp (F := Ideal) .f32 : (⟨S16, .i32⟩ : BufTy).Contents (Elt Ideal) → (⟨S16, .f32⟩ : BufTy).Contents (Elt Ideal)),
    StableHlo.nullary main_cst_6 (constant (F := Ideal) S_ .f32 0x3F800000#32),
    StableHlo.unary main_cst_6 main_v22 (broadcastInDim S16 ![] bcast_S_S16 : (⟨S_, .f32⟩ : BufTy).Contents (Elt Ideal) → (⟨S16, .f32⟩ : BufTy).Contents (Elt Ideal)),
    StableHlo.binary main_v21 main_v22 main_v23 (maximumf (F := Ideal) (φ := .f32) : (⟨S16, .f32⟩ : BufTy).Contents (Elt Ideal) → (⟨S16, .f32⟩ : BufTy).Contents (Elt Ideal) → (⟨S16, .f32⟩ : BufTy).Contents (Elt Ideal)),
    StableHlo.unary main_v23 main_v24 (broadcastInDim S16x1 ![0] bcast_S16_S16x1_0 : (⟨S16, .f32⟩ : BufTy).Contents (Elt Ideal) → (⟨S16x1, .f32⟩ : BufTy).Contents (Elt Ideal)),
    StableHlo.unary main_v24 main_v25 (broadcastInDim S16x128 ![0, 1] bcast_S16x1_S16x128_0_1 : (⟨S16x1, .f32⟩ : BufTy).Contents (Elt Ideal) → (⟨S16x128, .f32⟩ : BufTy).Contents (Elt Ideal)),
    StableHlo.binary main_v20 main_v25 main_v26 (Host.divf (F := Ideal) (φ := .f32) : (⟨S16x128, .f32⟩ : BufTy).Contents (Elt Ideal) → (⟨S16x128, .f32⟩ : BufTy).Contents (Elt Ideal) → (⟨S16x128, .f32⟩ : BufTy).Contents (Elt Ideal)) ]

set_option maxRecDepth 4096 in
/-- @main is that straight line: the functions unfolded at their calls and the records at their fields, both sides
    are one chain of steps once sequencing is reassociated. -/
theorem main_eq (c : Dev nD) : main (F := Ideal) c = StableHlo.seq (idOps ++ sumOps) := by
  simp only [main, fn_roll_static.body, fn_cumsum.body, fn_cumsum_0.body, fn_cumsum_1.body, fn_cumsum_2.body,
    fn_take.body, fn_where.body, idOps, sumOps, List.cons_append, List.nil_append, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem idOps_sub : (idOps : List (HloOp τ sig (Elt Ideal))).Forall fun op => op.bufs ⊆ StableHlo.tcRefs τ sig :=
  ⟨StableHlo.nullary_bufs_sub .., StableHlo.unary_bufs_sub .., StableHlo.unary_bufs_sub .., StableHlo.binary_bufs_sub .., StableHlo.nullary_bufs_sub .., StableHlo.unary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

theorem sumOps_sub : (sumOps : List (HloOp τ sig (Elt Ideal))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub ..⟩

theorem ops_sub : (idOps ++ sumOps : List (HloOp τ sig (Elt Ideal))).Forall fun op => op.bufs ⊆ StableHlo.tcRefs τ sig :=
  List.forall_iff_forall_mem.2 fun op h => (List.mem_append.1 h).elim
    (List.forall_iff_forall_mem.1 idOps_sub op) (List.forall_iff_forall_mem.1 sumOps_sub op)

/-- The ids on core `c`: what `%17` holds after the first stretch, from the launch memory `m`. -/
def ids (m : (ℓ : Loc nD τ sig) → Buf (Elt Ideal) ℓ) (c : Dev nD) : IVec Cert.SegmentMean.Ids 32 :=
  StableHlo.after idOps (StableHlo.launchContents m c) (Proc.devRef .tc main_v17)

end Cert.ReferenceIdeal.RefRun

end
-- ==== Proof.ScatterRows.lean ====
import Idealize.ShloMosaic.PureOps.Ideal
import Idealize.ShloMosaic.PureOps.Ideal.Laws
import Idealize.ShloMosaic.Lib.ValueIdx

/-!
# Adding rows into the places their indices name

A table `upd` of `M` rows and `C` columns is added into a table `x` of `N` rows and `C` columns: row `j` of `upd`
goes, column by column, to the row of `x` that the `j`-th index names. The index is a machine word read as a signed
integer; a row whose index is negative or at least `N` lands nowhere and is dropped. So entry `(n, c)` of the result
is `x n c` plus the sum of `upd j c` over the rows `j` whose index is `n`.

This is the host's accumulating scatter with the updates' second axis the window axis, the operand's first axis the
inserted one (and the one the index addresses), and the indices laid as a column `[M, 1]`. The proof reads the
landing place of an update entry `(p, q)` off the dimension numbers: on the first axis the start is the `p`-th index
and the window coordinate is `0`; on the second the start is `0` and the window coordinate is `q`.
-/

noncomputable section

open scoped BigOperators

namespace Cert.ScatterRows

open Idealize.ShloMosaic Idealize.ShloMosaic.ValueIdx

/-- The dimension numbers: window axis `1` of the updates, inserted axis `0` of the operand, which is also the axis
    the one-component index addresses; the index vector lies along axis `1` of the indices. -/
abbrev scatRows (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- On the operand's first axis the window of update entry `(p, q)` starts at the `p`-th index, read signed. -/
theorem start_zero (idx : IVec ⟨2, ![M, 1]⟩ w) (p : Fin M) (q : Fin C) :
    (scatRows N C M wf).start (ix2 p q) idx 0 = (idx (ix2 p 0)).toInt := by
  unfold ScatterDims.start
  rw [dif_pos (show (0 : Fin 2) ∈ (scatRows N C M wf).scatterDimsToOperandDims from List.mem_singleton.mpr rfl)]
  have hsi : (scatRows N C M wf).siIdx (ix2 p q) ⟨List.idxOf (0 : Fin 2) (scatRows N C M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- On the second axis, which no index addresses, it starts at `0`. -/
theorem start_one (idx : IVec ⟨2, ![M, 1]⟩ w) (j : (⟨2, ![M, C]⟩ : Shape).Idx) :
    (scatRows N C M wf).start j idx 1 = 0 := by
  unfold ScatterDims.start
  rw [dif_neg (show (1 : Fin 2) ∉ ([0] : List (Fin 2)) by decide)]

/-- The first axis is inserted: the window coordinate there is `0`. -/
theorem window_zero (j : (⟨2, ![M, C]⟩ : Shape).Idx) : (scatRows N C M wf).window j 0 = 0 := by
  unfold ScatterDims.window
  have h : (0 : Fin 2) ∉ (scatRows N C M wf).sKept := (show (0 : Fin 2) ∉ ([1] : List (Fin 2)) by decide)
  rw [dif_neg h]

/-- On the second axis the window coordinate of update entry `(p, q)` is `q`. -/
theorem window_one (p : Fin M) (q : Fin C) : (scatRows N C M wf).window (ix2 p q) 1 = q.val := by
  unfold ScatterDims.window
  have h : (1 : Fin 2) ∈ (scatRows N C M wf).sKept := (show (1 : Fin 2) ∈ ([1] : List (Fin 2)) by decide)
  rw [dif_pos h]
  rfl

/-- WHERE AN UPDATE ENTRY LANDS: entry `(p, q)` lands on `(n, c)` exactly when the `p`-th index is `n` and `q` is `c`. -/
theorem resultIdx?_eq_some_iff (idx : IVec ⟨2, ![M, 1]⟩ w) (p : Fin M) (q : Fin C) (n : Fin N) (c : Fin C) :
    (scatRows N C M wf).resultIdx? (ix2 p q) idx = some (ix2 n c)
      ↔ (idx (ix2 p 0)).toInt = (n.val : Int) ∧ q = c := by
  have hs0 := start_zero (N := N) wf idx p q
  have hs1 := start_one (N := N) wf idx (ix2 p q)
  have hw0 := window_zero (N := N) wf (ix2 p q)
  have hw1 := window_one (N := N) wf p q
  unfold ScatterDims.resultIdx?
  split
  · rename_i h
    rw [Option.some.injEq]
    constructor
    · intro e
      have e0 := congrArg Fin.val (congrFun e 0)
      have e1 := congrArg Fin.val (congrFun e 1)
      have h0 := (h 0).1
      simp only [hs0, hw0] at e0 h0
      simp only [hs1, hw1] at e1
      refine ⟨?_, Fin.ext ?_⟩
      · change ((idx (ix2 p 0)).toInt + ((0 : Nat) : Int)).toNat = n.val at e0
        omega
      · change ((0 : Int) + (q.val : Int)).toNat = c.val at e1
        omega
    · rintro ⟨e0, rfl⟩
      funext a; refine Fin.ext ?_
      match a with
      | ⟨0, _⟩ =>
        show ((scatRows N C M wf).start (ix2 p q) idx 0 + ((scatRows N C M wf).window (ix2 p q) 0 : Nat)).toNat = n.val
        rw [hs0, hw0, e0]; omega
      | ⟨1, _⟩ =>
        show ((scatRows N C M wf).start (ix2 p q) idx 1 + ((scatRows N C M wf).window (ix2 p q) 1 : Nat)).toNat = q.val
        rw [hs1, hw1]; omega
  · rename_i h
    constructor
    · intro e; exact absurd e (by simp)
    · rintro ⟨e0, rfl⟩
      refine absurd (fun a => ?_) h
      match a with
      | ⟨0, _⟩ =>
        show 0 ≤ (scatRows N C M wf).start (ix2 p q) idx 0 + ((scatRows N C M wf).window (ix2 p q) 0 : Nat)
          ∧ (scatRows N C M wf).start (ix2 p q) idx 0 + ((scatRows N C M wf).window (ix2 p q) 0 : Nat) < (N : Int)
        rw [hs0, hw0, e0]; have := n.isLt; omega
      | ⟨1, _⟩ =>
        show 0 ≤ (scatRows N C M wf).start (ix2 p q) idx 1 + ((scatRows N C M wf).window (ix2 p q) 1 : Nat)
          ∧ (scatRows N C M wf).start (ix2 p q) idx 1 + ((scatRows N C M wf).window (ix2 p q) 1 : Nat) < (C : Int)
        rw [hs1, hw1]; have := q.isLt; omega

/-- THE SCATTER-ADD READ AT AN ENTRY: entry `(n, c)` of the result is the operand's entry plus the sum, over the rows
    `j` of the updates whose index is `n`, of their entry in column `c`. -/
theorem scatterAddRows_apply (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd (scatRows N C M wf) x idx upd (ix2 n c)
      = x (ix2 n c) + ∑ j : Fin M, if (idx (ix2 j 0)).toInt = (n.val : Int) then upd (ix2 j c) else 0 := by
  unfold Ideal.hostScatterAdd
  congr 1
  rw [Finset.sum_filter, sum_idx2]
  refine Finset.sum_congr rfl fun p _ => ?_
  simp only [resultIdx?_eq_some_iff]
  by_cases hp : (idx (ix2 p 0)).toInt = (n.val : Int)
  · simp only [hp, true_and, if_true]
    rw [Finset.sum_ite_eq' Finset.univ c fun q => upd (ix2 p q)]
    simp
  · simp only [hp, false_and, if_false, Finset.sum_const_zero]

end Cert.ScatterRows

end
-- ==== Proof.RefRun.lean ====
import proofs.«178933_j54640573939778_2_alg».proof.Proof.RefOps
import proofs.«178933_j54640573939778_2_alg».proof.Proof.ScatterRows
import Idealize.ShloMosaic.Lib.Pipeline.Value

/-!
# The run of the program that adds each row into the place its id names

The ids are carried as ONE array — the first stretch's fold over the launch memory, read at `%17` — and never
opened: the second stretch is read back over an arbitrary valuation of the buffers, in which the ids are just the
contents of `%17`. What the second stretch computes from them is the segment mean: the accumulating scatter, read
at an entry, is the sum over the rows whose id is that entry's segment; the operand it adds into is zero; the
divisor is the one the segment mean is stated with. Neither stretch writes an argument.
-/

noncomputable section

open scoped BigOperators

namespace Cert.ReferenceIdeal.RefRun

open Cert.ReferenceIdeal Cert.ReferenceIdeal.Gen Idealize.ShloMosaic Idealize.ShloMosaic.TcCoe Idealize.SL.Sem
open Idealize.ShloMosaic.ValueIdx

/-! ## The second stretch, read back over any contents of the buffers -/

/-- The zero table read at an entry. -/
theorem zeroTable_apply (b : Fin 16) (ch : Fin 128) :
    (broadcastInDim S16x128 ![] bcast_S_S16x128 (constant (F := Ideal) S_ .f32 0x00000000#32) : FVec Ideal S16x128 .f32) (ix2 b ch) = 0 := by
  rw [broadcastInDim_apply ![] bcast_S_S16x128 (constant (F := Ideal) S_ .f32 0x00000000#32) (ix2 b ch) ix0 (fun a => a.elim0),
    constant_apply]
  exact Ideal.ofBits_zero_f32

/-- The ids laid as a column, read at row `r`: the id of row `r`. -/
theorem idsColumn_apply (v : IVec S1600000 32) (r : Fin 1600000) :
    broadcastInDim S1600000x1 ![0] bcast_S1600000_S1600000x1_0 v (ix2 r 0) = v (ix1 r) := by
  refine broadcastInDim_apply ![0] bcast_S1600000_S1600000x1_0 v (ix2 r 0) (ix1 r) fun a => ?_
  match a with
  | ⟨0, _⟩ =>
    show r.val = if (1600000 : Nat) = 1 then 0 else r.val
    rw [if_neg (by decide)]

/-- At exact values the host's accumulating scatter is the exact sum of the updates that land on each entry. -/
theorem scatterAdd_eq {s si u : Shape} {w : Nat} (d : ScatterDims s si u) (x : FVec Ideal s .f32) (idx : IVec si w)
    (upd : FVec Ideal u .f32) :
    Host.scatterAdd (F := Ideal) (φ := .f32) d x idx upd = Ideal.hostScatterAdd d x idx upd := rfl

/-- The program's dimension numbers are those of adding rows into the rows their indices name. -/
theorem scatter_dims_eq : scatter_S16x128_S1600000x1_S1600000x128_1_0_0_1
    = Cert.ScatterRows.scatRows 16 128 1600000 scatter_S16x128_S1600000x1_S1600000x128_1_0_0_1_wf := rfl

/-- THE SCATTER IS THE SEGMENT SUM: adding every row of `x` into the row of a zero table that its id names leaves,
    at entry `(b, ch)`, the sum of column `ch` over the rows whose id is `b`. -/
theorem scatter_eq_segSum (x : FVec Ideal S1600000x128 .f32) (v : IVec S1600000 32) :
    Host.scatterAdd (F := Ideal) (φ := .f32) scatter_S16x128_S1600000x1_S1600000x128_1_0_0_1
        (broadcastInDim S16x128 ![] bcast_S_S16x128 (constant (F := Ideal) S_ .f32 0x00000000#32))
        (broadcastInDim S1600000x1 ![0] bcast_S1600000_S1600000x1_0 v) x
      = Cert.SegmentMean.segSum x v := by
  funext j
  obtain ⟨b, ch, rfl⟩ : ∃ (b : Fin 16) (ch : Fin 128), j = ix2 b ch := ⟨j 0, j 1, eq_ix2 j⟩
  rw [Cert.SegmentMean.segSum_apply, scatterAdd_eq, scatter_dims_eq, Cert.ScatterRows.scatterAddRows_apply,
    zeroTable_apply, zero_add]
  unfold Cert.SegmentMean.segSumAt
  refine Finset.sum_congr rfl fun r _ => ?_
  rw [idsColumn_apply]

/-- The second stretch from any contents `W` of the buffers: the result is the segment mean of what `W` holds at
    the table, at `%17` and at the counts. -/
theorem sum_eq (W : Valuation τ sig (Elt Ideal)) :
    StableHlo.after sumOps W (Proc.devRef .tc main_v26)
      = Cert.SegmentMean.segMean (W (Proc.devRef .tc main_arg0)) (W (Proc.devRef .tc main_v17)) (W (Proc.devRef .tc main_arg1)) := by
  after_results
  exact congrArg₂ (Host.divf (F := Ideal) (φ := .f32)) (scatter_eq_segSum _ _) rfl

/-- The second stretch writes neither argument. -/
theorem sumOps_arg0 (W : Valuation τ sig (Elt Ideal)) :
    StableHlo.after sumOps W (Proc.devRef .tc main_arg0) = W (Proc.devRef .tc main_arg0) := by
  after_results
theorem sumOps_arg1 (W : Valuation τ sig (Elt Ideal)) :
    StableHlo.after sumOps W (Proc.devRef .tc main_arg1) = W (Proc.devRef .tc main_arg1) := by
  after_results

/-! ## The first stretch writes neither argument -/

theorem idOps_arg0 (V : Valuation τ sig (Elt Ideal)) :
    StableHlo.after idOps V (Proc.devRef .tc main_arg0) = V (Proc.devRef .tc main_arg0) :=
  StableHlo.after_of_forall_not_mem (b := Proc.devRef .tc main_arg0) _ _ (List.forall_iff_forall_mem.mp (by
    simp only [idOps, List.Forall, StableHlo.nullary_writes, StableHlo.unary_writes, StableHlo.binary_writes,
      StableHlo.ternary_writes, Finset.mem_singleton]
    repeat' apply And.intro
    all_goals exact StableHlo.devRef_ne_of_ne (by decide)))

theorem idOps_arg1 (V : Valuation τ sig (Elt Ideal)) :
    StableHlo.after idOps V (Proc.devRef .tc main_arg1) = V (Proc.devRef .tc main_arg1) :=
  StableHlo.after_of_forall_not_mem (b := Proc.devRef .tc main_arg1) _ _ (List.forall_iff_forall_mem.mp (by
    simp only [idOps, List.Forall, StableHlo.nullary_writes, StableHlo.unary_writes, StableHlo.binary_writes,
      StableHlo.ternary_writes, Finset.mem_singleton]
    repeat' apply And.intro
    all_goals exact StableHlo.devRef_ne_of_ne (by decide)))

/-! ## The run -/

/-- The whole line from the launch memory: the result is the segment mean of the table, the ids and the counts. -/
theorem result_eq (m : (ℓ : Loc nD τ sig) → Buf (Elt Ideal) ℓ) (c : Dev nD) :
    StableHlo.after (idOps ++ sumOps) (StableHlo.launchContents m c) (Proc.devRef .tc main_v26)
      = Cert.SegmentMean.segMean (m ((c.tc : Thread nD τ).loc main_arg0)) (ids m c) (m ((c.tc : Thread nD τ).loc main_arg1)) := by
  rw [StableHlo.after_append, sum_eq, idOps_arg0, idOps_arg1]
  rfl

theorem arg0_eq (m : (ℓ : Loc nD τ sig) → Buf (Elt Ideal) ℓ) (c : Dev nD) :
    StableHlo.after (idOps ++ sumOps) (StableHlo.launchContents m c) (Proc.devRef .tc main_arg0)
      = m ((c.tc : Thread nD τ).loc main_arg0) := by
  rw [StableHlo.after_append, sumOps_arg0, idOps_arg0]

theorem arg1_eq (m : (ℓ : Loc nD τ sig) → Buf (Elt Ideal) ℓ) (c : Dev nD) :
    StableHlo.after (idOps ++ sumOps) (StableHlo.launchContents m c) (Proc.devRef .tc main_arg1)
      = m ((c.tc : Thread nD τ).loc main_arg1) := by
  rw [StableHlo.after_append, sumOps_arg1, idOps_arg1]

/-- Every operation of the line determines what it writes. -/
theorem idOps_fresh : (idOps : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sumOps_fresh : (sumOps : List (HloOp τ sig (Elt Ideal))).Forall fun op => op.fresh = ∅ :=
  ⟨rfl, rfl, rfl, rfl, rfl, rfl, rfl, rfl, rfl, rfl, rfl⟩
theorem ops_fresh : ∀ op ∈ (idOps ++ sumOps : List (HloOp τ sig (Elt Ideal))), op.fresh = ∅ :=
  fun op h => (List.mem_append.1 h).elim
    (List.forall_iff_forall_mem.1 idOps_fresh op) (List.forall_iff_forall_mem.1 sumOps_fresh op)

/-- The line's fold at every buffer, from the launch memory. -/
theorem run_after (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b)
        = StableHlo.after (idOps ++ sumOps) (StableHlo.launchContents m c) (Proc.devRef .tc b) :=
  StableHlo.run_seq scopedRefs_eq scopedSems_eq defs main (fun _ => idOps ++ sumOps) main_eq (fun _ => ops_sub) m ρ
    (fun _ => ops_fresh)

/-- On every device, from any memory with zero counters: every weakly fair execution of @main terminates with the
    result at the segment mean of the table, the ids and the counts, and the two arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = Cert.SegmentMean.segMean (m ((c.tc : Thread nD τ).loc main_arg0)) (ids m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (result_eq m c),
      (h c main_arg0).trans (arg0_eq m c),
      (h c main_arg1).trans (arg1_eq m c)⟩)
    (run_after m ρ)

end Cert.ReferenceIdeal.RefRun

end
-- ==== Proof.IdsAgree.lean ====
import proofs.«178933_j54640573939778_2_alg».proof.Proof.RefOps
import proofs.«178933_j54640573939778_2_alg».proof.Proof.KernelIds

/-!
# The two programs compute the same segment ids

Each program computes one segment id per row from the counts alone, by the same fifty-two integer operations: a
roll of the counts, a scatter and a running sum that mark where each segment starts, a running sum over the rows
and a clamped look-up. Read back over any contents of the buffers, each program's chain is those operations
applied, one inside the other, to what the counts' buffer holds; the two composed terms are the same operations
with the same shapes and dimension numbers, so they agree as soon as the counts do. The large reductions, the
scatters and the look-up are never opened: they are compared by name and argument.
-/

noncomputable section

namespace Cert.IdsAgree

open Idealize.ShloMosaic Idealize.ShloMosaic.TcCoe Idealize.SL.Sem Idealize.ShloMosaic.StableHlo

attribute [local irreducible] Host.reduceWindow Host.scatter Host.gather Host.reduce in
set_option maxRecDepth 8192 in
/-- From any two contents of the buffers that agree at the counts, the two chains leave the same ids in `%17`.
    Each side is first read back as its operations composed over the contents it started from. The roll's two
    slices of the counts are the pieces of a concatenation, a list of arrays of different shapes; what the
    buffers of those pieces hold is read back one operation at a time. Both sides are then the same composition
    over the counts. -/
theorem after_agree (V' : Valuation Cert.ReferenceIdeal.τ Cert.ReferenceIdeal.sig (Elt Ideal))
    (V : Valuation Cert.KernelIdeal.τ Cert.KernelIdeal.sig (Elt Ideal))
    (h : V' (Proc.devRef .tc Cert.ReferenceIdeal.main_arg1) = V (Proc.devRef .tc Cert.KernelIdeal.main_arg1)) :
    (after Cert.ReferenceIdeal.RefRun.idOps V' (Proc.devRef .tc Cert.ReferenceIdeal.main_v17) : IVec Cert.SegmentMean.Ids 32)
      = after Cert.KernelIdeal.Ids.idOps V (Proc.devRef .tc Cert.KernelIdeal.main_v17) := by
  simp only [Cert.ReferenceIdeal.RefRun.idOps, Cert.KernelIdeal.Ids.idOps, Cert.KernelIdeal.Gen.hostOps0,
    Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6,
    Cert.KernelIdeal.Gen.hostOps0_7, List.flatten_cons, List.flatten_nil, List.append_nil, List.cons_append,
    List.nil_append]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [h]
  rfl

/-- THE IDS AGREE: from launch memories that agree at the counts, the two programs' ids are the same array. -/
theorem ids_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RefRun.ids m' c = Cert.KernelIdeal.Ids.ids m c :=
  after_agree (launchContents m' c) (fun b => m (c, b)) h

end Cert.IdsAgree

end
-- ==== Proof.lean ====
/-
  Segment means of a table, two ways.

  Inputs: a table `x` of 1 600 000 rows and 128 columns of f32 and 16 counts `nv` (i32). Both programs first
  compute, from the counts alone and by the same integer operations, one segment id per row (ids repeated
  according to the counts), and both end by dividing the 16 × 128 segment sums by `max(float(nv), 1)`.
  They differ in how the sums are formed:

  * the reference adds every row into the place its id names (one scatter-add into a zero array): the entry
    `(b, ch)` is the sum of `x r ch` over the rows `r` whose id, read as a signed integer, is `b`;
  * the kernel walks a 2 × 50 grid; grid point `t` takes rows `16000 t … 16000 t + 15999`, compares their ids
    with the column numbers 0 … 15 to get a 0/1 matrix, multiplies it (contracting the row axis) into the block
    of rows and adds the product to a running [16, 128] block, which it resets at the first point of each core's
    50 and writes out after the last; the two cores' blocks are then added.

  Over the extended reals a row with weight 1 contributes its entry and a row with weight 0 contributes 0, a
  change of float format is the identity, and regrouping a finite sum needs only associativity and
  commutativity: 50 tiles of 16 000 rows are a core's 800 000 rows, the two cores are all 1 600 000 rows. So
  both programs end with the same array, `Cert.SegmentMean.segMean` of the table, the ids and the counts
  (Proof/SegmentMean.lean); the ids are never opened — the two programs' id computations are shown to be one
  function of the counts (Proof/IdsAgree.lean).

  The modules: Proof/CaseValues (what the body leaves at a point, per control case), Proof/StepAtEntry (the
  body's arithmetic at an entry), Proof/Accumulate (the running sum, by induction on the point),
  Proof/BlockReads (a point's blocks as rows of the arrays), Proof/TileSums and Proof/LibTileSum (the
  regrouping), Proof/KernelValue (the kernel program's run), Proof/ScatterRows, Proof/RefOps and Proof/RefRun
  (the reference's run). That the two kernel programs terminate without a fault and leave their arguments
  unchanged is their generated frame modules; the reference's frame is its run with the result dropped; no
  operation was rewritten for the reading over the extended reals, so `preserves` asks nothing.
-/
import proofs.«178933_j54640573939778_2_alg».proof.Defs
import proofs.«178933_j54640573939778_2_alg».proof.Proof.Gen.Kernel
import proofs.«178933_j54640573939778_2_alg».proof.Proof.Gen.Kernel.Frame
import proofs.«178933_j54640573939778_2_alg».proof.Proof.Gen.KernelIdeal
import proofs.«178933_j54640573939778_2_alg».proof.Proof.Gen.KernelIdeal.Frame
import proofs.«178933_j54640573939778_2_alg».proof.Proof.Gen.ReferenceIdeal
import proofs.«178933_j54640573939778_2_alg».proof.Proof.Gen.Pre_finite_inputs
import proofs.«178933_j54640573939778_2_alg».proof.Proof.KernelValue
import proofs.«178933_j54640573939778_2_alg».proof.Proof.RefRun
import proofs.«178933_j54640573939778_2_alg».proof.Proof.IdsAgree
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run m ρ)

/-- No operation of the kernel was rewritten for the reading over the extended reals. -/
theorem preserves : Cert.preserves_Kernel_KernelIdeal := trivial

/-- From memories that agree on the table and the counts both programs end with the segment means: the kernel's
    run and the reference's run end at `segMean` of their own table, ids and counts, and the ids agree because
    the counts do. -/
theorem algebraic : Cert.algebraic_KernelIdeal_ReferenceIdeal := by
  intro m ρ m' ρ' _ hagree
  refine ⟨fun c => Cert.SegmentMean.segMean
      (m ((c.tc : Thread Cert.KernelIdeal.nD Cert.KernelIdeal.τ).loc Cert.KernelIdeal.main_arg0))
      (Cert.KernelIdeal.Ids.ids m c)
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.RefRun.run m' ρ')
  rw [Cert.IdsAgree.ids_agree m m' c (hagree c).2, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
